-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x640 : Shape := ⟨2, ![64, 640]⟩
abbrev S64 : Shape := ⟨1, ![64]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x640 : S_.BroadcastsInDim S64x640 (![] : Fin 0 → Fin S64x640.rank)
  reducesTo_S64x640_S_d0_1 : S64x640.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x1024x128 .f32) (main_arg1 : FVec F S64x640 .f32) (main_arg2 : FVec F S64 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x640 .f32 := Host.absf main_arg1
  let main_cst_0 : FVec F S_ .f32 := constant S_ .f32 0x7F800000#32
  let main_v5 : FVec F S64x640 .f32 := broadcastInDim S64x640 ![] bcast_S_S64x640 main_cst_0
  let main_v6 : IVec S64x640 1 := cmpf .olt main_v4 main_v5
  let main_c_1 : IVec S_ 1 := constantI S_ 1 1#1
  let main_v7 : IVec S_ 1 := (fun x v => Host.reduce IntOp.andi x v reducesTo_S64x640_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S64x1024x128 : Shape := ⟨3, ![64, 1024, 128]⟩
abbrev S64x640 : Shape := ⟨2, ![64, 640]⟩
abbrev S64 : Shape := ⟨1, ![64]⟩
abbrev S64x1 : Shape := ⟨2, ![64, 1]⟩
abbrev S64x64x1024 : Shape := ⟨3, ![64, 64, 1024]⟩
abbrev S16x1024x128 : Shape := ⟨3, ![16, 1024, 128]⟩
abbrev S16x64x1024 : Shape := ⟨3, ![16, 64, 1024]⟩
abbrev S1056x128 : Shape := ⟨2, ![1056, 128]⟩
abbrev S1024x640 : Shape := ⟨2, ![1024, 640]⟩
abbrev S16x128 : Shape := ⟨2, ![16, 128]⟩
abbrev S1x1024x128 : Shape := ⟨3, ![1, 1024, 128]⟩
abbrev S1024x128 : Shape := ⟨2, ![1024, 128]⟩
abbrev S64x1024 : Shape := ⟨2, ![64, 1024]⟩
abbrev S1x64x1024 : Shape := ⟨3, ![1, 64, 1024]⟩

abbrev nBuf : Space → Nat
  | .hbm => 6
  | .vmem => 8
  | .smem => 0
  | _ => 0

abbrev bufTy : (tb : Table) → Fin (tcTables nBuf tb) → BufTy
  | .hbm, ⟨0, _⟩ => ⟨S64x1024x128, .f32⟩
  | .hbm, ⟨1, _⟩ => ⟨S64x640, .f32⟩
  | .hbm, ⟨2, _⟩ => ⟨S64, .f32⟩
  | .hbm, ⟨3, _⟩ => ⟨S64x640, .bf16⟩
  | .hbm, ⟨4, _⟩ => ⟨S64x1, .f32⟩
  | .hbm, ⟨5, _⟩ => ⟨S64x64x1024, .f32⟩
  | .local _ .vmem, ⟨0, _⟩ => ⟨S16x1024x128, .f32⟩
  | .local _ .vmem, ⟨1, _⟩ => ⟨S16x1024x128, .f32⟩
  | .local _ .vmem, ⟨2, _⟩ => ⟨S64x640, .bf16⟩
  | .local _ .vmem, ⟨3, _⟩ => ⟨S64x1, .f32⟩
  | .local _ .vmem, ⟨4, _⟩ => ⟨S16x64x1024, .f32⟩
  | .local _ .vmem, ⟨5, _⟩ => ⟨S16x64x1024, .f32⟩
  | .local _ .vmem, ⟨6, _⟩ => ⟨S1056x128, .bf16⟩
  | .local _ .vmem, ⟨7, _⟩ => ⟨S1024x640, .bf16⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v13 : Index := Scalar.indexCast arg7
  let c0_8 : Index := 0#32
  let c0_9 : Index := 0#32
  ![v13.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v44 : Index := Scalar.indexCast arg7
  let c0_26 : Index := 0#32
  let c0_27 : Index := 0#32
  ![v44.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S64_S64x1 : S64.ShapeCasts S64x1
  inb_S1056x128_S16x128_0_0 : ∀ a, (![0, 0] : Fin 2 → Nat) a + S16x128.size a ≤ S1056x128.size a
  h_S16x128 : 0 < S16x128.numel
  shapeCasts_S16x128_S16x128 : S16x128.ShapeCasts S16x128
  packedbf16_S1056x128_S16x128_0_0 : (Rect.unit (s := S1056x128) ![0, 0] S16x128.size inb_S1056x128_S16x128_0_0).PackedRows (EltTy.packing .bf16)
  inb_S1056x128_S16x128_1040_0 : ∀ a, (![1040, 0] : Fin 2 → Nat) a + S16x128.size a ≤ S1056x128.size a
  packedbf16_S1056x128_S16x128_1040_0 : (Rect.unit (s := S1056x128) ![1040, 0] S16x128.size inb_S1056x128_S16x128_1040_0).PackedRows (EltTy.packing .bf16)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x640_S64x640_0_0 : ∀ a, (![0, 0] : Fin 2 → Nat) a + S64x640.size a ≤ S64x640.size a
  h_S64x640 : 0 < S64x640.numel
  shapeCasts_S64x640_S64x640 : S64x640.ShapeCasts S64x640
  h_S1x1024x128 : 0 < S1x1024x128.numel
  shapeCasts_S1x1024x128_S1024x128 : S1x1024x128.ShapeCasts S1024x128
  inb_S1056x128_S1024x128_16_0 : ∀ a, (![16, 0] : Fin 2 → Nat) a + S1024x128.size a ≤ S1056x128.size a
  h_S1024x128 : 0 < S1024x128.numel
  shapeCasts_S1024x128_S1024x128 : S1024x128.ShapeCasts S1024x128
  packedbf16_S1056x128_S1024x128_16_0 : (Rect.unit (s := S1056x128) ![16, 0] S1024x128.size inb_S1056x128_S1024x128_16_0).PackedRows (EltTy.packing .bf16)
  inb_S1056x128_S1024x128_14_0 : ∀ a, (![14, 0] : Fin 2 → Nat) a + S1024x128.size a ≤ S1056x128.size a
  inb_S1024x640_S1024x128_0_0 : ∀ a, (![0, 0] : Fin 2 → Nat) a + S1024x128.size a ≤ S1024x640.size a
  packedbf16_S1024x640_S1024x128_0_0 : (Rect.unit (s := S1024x640) ![0, 0] S1024x128.size inb_S1024x640_S1024x128_0_0).PackedRows (EltTy.packing .bf16)
  inb_S1056x128_S1024x128_15_0 : ∀ a, (![15, 0] : Fin 2 → Nat) a + S1024x128.size a ≤ S1056x128.size a
  inb_S1024x640_S1024x128_0_128 : ∀ a, (![0, 128] : Fin 2 → Nat) a + S1024x128.size a ≤ S1024x640.size a
  packedbf16_S1024x640_S1024x128_0_128 : (Rect.unit (s := S1024x640) ![0, 128] S1024x128.size inb_S1024x640_S1024x128_0_128).PackedRows (EltTy.packing .bf16)
  inb_S1024x640_S1024x128_0_256 : ∀ a, (![0, 256] : Fin 2 → Nat) a + S1024x128.size a ≤ S1024x640.size a
  packedbf16_S1024x640_S1024x128_0_256 : (Rect.unit (s := S1024x640) ![0, 256] S1024x128.size inb_S1024x640_S1024x128_0_256).PackedRows (EltTy.packing .bf16)
  inb_S1056x128_S1024x128_17_0 : ∀ a, (![17, 0] : Fin 2 → Nat) a + S1024x128.size a ≤ S1056x128.size a
  inb_S1024x640_S1024x128_0_384 : ∀ a, (![0, 384] : Fin 2 → Nat) a + S1024x128.size a ≤ S1024x640.size a
  packedbf16_S1024x640_S1024x128_0_384 : (Rect.unit (s := S1024x640) ![0, 384] S1024x128.size inb_S1024x640_S1024x128_0_384).PackedRows (EltTy.packing .bf16)
  inb_S1056x128_S1024x128_18_0 : ∀ a, (![18, 0] : Fin 2 → Nat) a + S1024x128.size a ≤ S1056x128.size a
  inb_S1024x640_S1024x128_0_512 : ∀ a, (![0, 512] : Fin 2 → Nat) a + S1024x128.size a ≤ S1024x640.size a
  packedbf16_S1024x640_S1024x128_0_512 : (Rect.unit (s := S1024x640) ![0, 512] S1024x128.size inb_S1024x640_S1024x128_0_512).PackedRows (EltTy.packing .bf16)
  inb_S1024x640_S1024x640_0_0 : ∀ a, (![0, 0] : Fin 2 → Nat) a + S1024x640.size a ≤ S1024x640.size a
  h_S1024x640 : 0 < S1024x640.numel
  broadcasts_S64x1_S64x1024 : S64x1.Broadcasts S64x1024
  h_S1x64x1024 : 0 < S1x64x1024.numel
  shapeCasts_S1x64x1024_S64x1024 : S1x64x1024.ShapeCasts S64x1024
  shapeCasts_S64x1024_S1x64x1024 : S64x1024.ShapeCasts S1x64x1024
  dot_S64x640_S1024x640_S64x1024_1_1_0_0_n_n_wf : DotDims.WF S64x640 S1024x640 S64x1024 [1] [1] [0] [0] [] []
  hrank0 : 0 < grid0.rank
  k0_t1_ok : k0_t1_loop.OK
  k0_off1_inb : ∀ k0_t1 : Fin k0_t1_loop.trips, ∀ a, (k0_off1 k0_t1) a + S1x1024x128.size a ≤ S16x1024x128.size a
  k0_off2_inb : ∀ k0_t1 : Fin k0_t1_loop.trips, ∀ a, (k0_off2 k0_t1) a + S1x64x1024.size a ≤ S16x64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x128.size a ≤ S64x1024x128.size a
  hwx0_0 : ∀ i : grid0.Coords, EltTy.bits .f32 = 32 ∨ (Rect.block (s := S64x1024x128) S16x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x640.size a ≤ S64x640.size a
  hwx0_1 : ∀ i : grid0.Coords, EltTy.bits .bf16 = 32 ∨ (Rect.block (s := S64x640) S64x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x1024.size a ≤ S64x64x1024.size a
  hwx0_3 : ∀ i : grid0.Coords, EltTy.bits .f32 = 32 ∨ (Rect.block (s := S64x64x1024) S16x64x1024.size (cc0_transform_3 i) (hinb0_3 i)).WholeWords (EltTy.packing .f32)

variable [Facts₀]

def dot_S64x640_S1024x640_S64x1024_1_1_0_0_n_n : DotDims S64x640 S1024x640 S64x1024 where
  lhsContracting := [1]
  rhsContracting := [1]
  lhsNonContracting := [0]
  rhsNonContracting := [0]
  lhsBatch := []
  rhsBatch := []
  wf := dot_S64x640_S1024x640_S64x1024_1_1_0_0_n_n_wf

abbrev win0_0 : Pipeline.Window sig grid0 :=
  Pipeline.Window.ofSpec (Memref.whole main_arg0) S16x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S64x640 : Shape := ⟨2, ![64, 640]⟩
abbrev S64 : Shape := ⟨1, ![64]⟩
abbrev S_ : Shape := ⟨0, ![]⟩
abbrev S64x1028x128 : Shape := ⟨3, ![64, 1028, 128]⟩
abbrev S64x1024x1x128 : Shape := ⟨4, ![64, 1024, 1, 128]⟩
abbrev S64x1024x5x128 : Shape := ⟨4, ![64, 1024, 5, 128]⟩
abbrev S64x1024x640 : Shape := ⟨3, ![64, 1024, 640]⟩
abbrev S64x64x1024 : Shape := ⟨3, ![64, 64, 1024]⟩
abbrev S1x64x1 : Shape := ⟨3, ![1, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x640, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S64x1028x128, .f32⟩
  | .hbm, ⟨6, _⟩ => ⟨S64x1024x128, .f32⟩
  | .hbm, ⟨7, _⟩ => ⟨S64x1024x128, .f32⟩
  | .hbm, ⟨8, _⟩ => ⟨S64x1024x128, .f32⟩
  | .hbm, ⟨9, _⟩ => ⟨S64x1024x128, .f32⟩
  | .hbm, ⟨10, _⟩ => ⟨S64x1024x128, .f32⟩
  | .hbm, ⟨11, _⟩ => ⟨S64x1024x1x128, .f32⟩
  | .hbm, ⟨12, _⟩ => ⟨S64x1024x1x128, .f32⟩
  | .hbm, ⟨13, _⟩ => ⟨S64x1024x1x128, .f32⟩
  | .hbm, ⟨14, _⟩ => ⟨S64x1024x1x128, .f32⟩
  | .hbm, ⟨15, _⟩ => ⟨S64x1024x1x128, .f32⟩
  | .hbm, ⟨16, _⟩ => ⟨S64x1024x5x128, .f32⟩
  | .hbm, ⟨17, _⟩ => ⟨S64x1024x640, .f32⟩
  | .hbm, ⟨18, _⟩ => ⟨S64x64x1024, .f32⟩
  | .hbm, ⟨19, _⟩ => ⟨S64x64x1024, .f32⟩
  | .hbm, ⟨20, _⟩ => ⟨S1x64x1, .f32⟩
  | .hbm, ⟨21, _⟩ => ⟨S64x64x1024, .f32⟩
  | .hbm, ⟨22, _⟩ => ⟨S64x64x1024, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  pads_S64x1024x128_S64x1028x128_000_220_000 : S64x1024x128.Pads (![0, 2, 0] : Fin 3 → Nat) ![0, 2, 0] ![0, 0, 0] S64x1028x128
  h_S_ : 0 < S_.numel
  slices_S64x1028x128_S64x1024x128_0_0_0 : S64x1028x128.Slices ![0, 0, 0] S64x1024x128
  slices_S64x1028x128_S64x1024x128_0_1_0 : S64x1028x128.Slices ![0, 1, 0] S64x1024x128
  slices_S64x1028x128_S64x1024x128_0_2_0 : S64x1028x128.Slices ![0, 2, 0] S64x1024x128
  slices_S64x1028x128_S64x1024x128_0_3_0 : S64x1028x128.Slices ![0, 3, 0] S64x1024x128
  slices_S64x1028x128_S64x1024x128_0_4_0 : S64x1028x128.Slices ![0, 4, 0] S64x1024x128
  bcast_S64x1024x128_S64x1024x1x128_0_1_3 : S64x1024x128.BroadcastsInDim S64x1024x1x128 (![0, 1, 3] : Fin 3 → Fin S64x1024x1x128.rank)
  concatenates_S64x1024x1x128_S64x1024x1x128_S64x1024x1x128_S64x1024x1x128_S64x1024x1x128_S64x1024x5x128_d2 : Shape.Concatenates [S64x1024x1x128, S64x1024x1x128, S64x1024x1x128, S64x1024x1x128, S64x1024x1x128] S64x1024x5x128 2
  shapeCasts_S64x1024x5x128_S64x1024x640 : S64x1024x5x128.ShapeCasts S64x1024x640
  transposes_S64x64x1024_S64x64x1024_1_0_2 : S64x64x1024.Transposes [1, 0, 2] S64x64x1024
  bcast_S64_S1x64x1_1 : S64.BroadcastsInDim S1x64x1 (![1] : Fin 1 → Fin S1x64x1.rank)
  bcast_S1x64x1_S64x64x1024_0_1_2 : S1x64x1.BroadcastsInDim S64x64x1024 (![0, 1, 2] : Fin 3 → Fin S64x64x1024.rank)
  dot_S64x640_S64x1024x640_S64x64x1024_1_2_0_01_n_n_wf : DotDims.WF S64x640 S64x1024x640 S64x64x1024 [1] [2] [0] [0, 1] [] []

variable [Facts₀]

def dot_S64x640_S64x1024x640_S64x64x1024_1_2_0_01_n_n : DotDims S64x640 S64x1024x640 S64x64x1024 where
  lhsContracting := [1]
  rhsContracting := [2]
  lhsNonContracting := [0]
  rhsNonContracting := [0, 1]
  lhsBatch := []
  rhsBatch := []
  wf := dot_S64x640_S64x1024x640_S64x64x1024_1_2_0_01_n_n_wf

class Facts : Prop extends Facts₀ where

variable [Facts]
-- ==== Proof.KWindow.lean ====
/-
  The halo buffer and the window matrix of one batch row, for any float instance.

  Each trip of the body's row loop writes one batch row (1024 positions of 128 lanes) into rows 16 … 1039 of a halo buffer
  of 1056 rows whose two margins (rows 0 … 15 and 1040 … 1055) hold the margin value, then copies five shifted copies of it
  (rows 14 + c …, c = 0 … 4) side by side into the 640 columns of a window buffer. Read back whole, the window buffer is
  therefore the matrix whose entry (t, 128·c + e) is row t + c − 2 of the batch row at lane e when that row exists and the
  margin value otherwise (`zrow`); that is what `v40_eq` says, and the lemmas before it read the two buffers one store
  at a time.
-/
import proofs.«110926_j54116587929806_2_alg».proof.Proof.Gen.Kernel.Frame
import proofs.«110926_j54116587929806_2_alg».proof.Proof.Gen.Kernel.Loops
import proofs.«110926_j54116587929806_2_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.WholeRead
import Idealize.ShloMosaic.Lib.ValueIdx
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The halo buffer and the window matrix, for any float instance -/

/-- The value the body's two margin stores write at every entry. -/
def zeroB : Elt F EltTy.bf16 := (k0_pay1 (F := F)) (ix2 (0 : Fin 16) (0 : Fin 128))

theorem pay1_apply (j : S16x128.Idx) : (k0_pay1 (F := F)) j = zeroB (F := F) := by
  unfold zeroB k0_pay1; rfl

theorem pay2_apply (j : S16x128.Idx) : (k0_pay2 (F := F)) j = zeroB (F := F) := by
  unfold zeroB k0_pay1 k0_pay2; rfl

/-- The window matrix built from one row block `p` of the input (1024 rows of 128 lanes): entry `(t, 128·c + e)` is row
    `t + c − 2` of `p` at lane `e` when that row exists, and the margin value otherwise. -/
def zrow (p : S1024x128.Idx → Elt F EltTy.bf16) : S1024x640.Idx → Elt F EltTy.bf16 := fun y =>
  if h : 2 ≤ (y 0).val + (y 1).val / 128 ∧ (y 0).val + (y 1).val / 128 < 1026 then
    p (ix2 (⟨(y 0).val + (y 1).val / 128 - 2, by omega⟩ : Fin 1024) (⟨(y 1).val % 128, Nat.mod_lt _ (by decide)⟩ : Fin 128))
  else zeroB (F := F)

section Reads

variable (arg5 : Memref sig .tc .vmem S1056x128 .bf16) (arg6 : Memref sig .tc .vmem S1024x640 .bf16)

/-- Rows `o … o + 1023` of the halo buffer after the row block `P` has been stored at rows 16 … 1039 over contents `f`:
    inside the stored rows the block, outside them what `f` held. -/
theorem tap_read (f : BufTy.Contents (Elt F) arg5.view.ty) (P : S1024x128.Idx → Elt F EltTy.bf16) (o : ℕ)
    (inbo : ∀ a, (![o, 0] : Fin 2 → Nat) a + S1024x128.size a ≤ S1056x128.size a) (x : S1024x128.Idx) :
    View.readAt (Elt F) arg5.view (Rect.unit (s := S1056x128) ![o, 0] S1024x128.size inbo).toLoadRect
        (arg5.view.writes (Elt F) f [⟨Rect.unit (s := S1056x128) ![16, 0] S1024x128.size Gen.inb_S1056x128_S1024x128_16_0, P⟩]) x
      = if h : 16 ≤ o + (x 0).val ∧ o + (x 0).val < 1040 then
          P (ix2 (⟨o + (x 0).val - 16, by omega⟩ : Fin 1024) (⟨(x 1).val, (x 1).isLt⟩ : Fin 128))
        else arg5.view.read (Elt F) f (ix2 (⟨o + (x 0).val, by
            have h0 := inbo 0; have hx : (x 0).val < 1024 := (x 0).isLt
            have : o + 1024 ≤ 1056 := h0
            omega⟩ : Fin 1056) (⟨(x 1).val, (x 1).isLt⟩ : Fin 128)) := by
  have hx0 : (x 0).val < 1024 := (x 0).isLt
  have hx1 : (x 1).val < 128 := (x 1).isLt
  have ho : o + 1024 ≤ 1056 := inbo 0
  rw [View.readAt_apply]
  have hidx : (Rect.unit (s := S1056x128) ![o, 0] S1024x128.size inbo).toLoadRect.idx x
      = ix2 (⟨o + (x 0).val, by omega⟩ : Fin 1056) (⟨(x 1).val, hx1⟩ : Fin 128) := by
    funext a
    match a with
    | ⟨0, _⟩ => exact Fin.ext (by show o + 1 * (x 0).val = o + (x 0).val; omega)
    | ⟨1, _⟩ => exact Fin.ext (by show 0 + 1 * (x 1).val = (x 1).val; omega)
  rw [hidx]
  by_cases h : 16 ≤ o + (x 0).val ∧ o + (x 0).val < 1040
  · rw [dif_pos h]
    exact View.read_writes_cons_unit_of_mem arg5.view f Gen.inb_S1056x128_S1024x128_16_0 P [] _
      (ix2 (⟨o + (x 0).val - 16, by omega⟩ : Fin 1024) (⟨(x 1).val, hx1⟩ : Fin 128)) rfl
      (fun a => match a with
        | ⟨0, _⟩ => by show o + (x 0).val = 16 + (o + (x 0).val - 16); omega
        | ⟨1, _⟩ => by show (x 1).val = 0 + (x 1).val; omega)
  · rw [dif_neg h]
    exact View.read_writes_cons_unit_of_not_mem arg5.view f Gen.inb_S1056x128_S1024x128_16_0 P [] _ rfl (0 : Fin 2)
      (by show o + (x 0).val < 16 ∨ 16 + 1024 ≤ o + (x 0).val; omega)

end Reads

section Cols

variable (arg6 : Memref sig .tc .vmem S1024x640 .bf16)

/-- The window buffer read whole after its five column blocks (128 lanes each) have been stored: column `128·c + e`
    reads block `c` at lane `e`. -/
theorem col_read (W0 W1 W2 W3 W4 : S1024x128.Idx → Elt F EltTy.bf16) (y : S1024x640.Idx) (c : ℕ) (hc : c < 5)
    (hy : 128 * c ≤ (y 1).val ∧ (y 1).val < 128 * c + 128) :
    arg6.view.readCov
        [⟨Rect.unit (s := S1024x640) ![0, 512] S1024x128.size Gen.inb_S1024x640_S1024x128_0_512, W4⟩,
         ⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩]
        (Rect.unit (s := S1024x640) ![0, 0] S1024x640.size Gen.inb_S1024x640_S1024x640_0_0).toLoadRect y
      = (if c = 0 then W0 else if c = 1 then W1 else if c = 2 then W2 else if c = 3 then W3 else W4)
          (ix2 (⟨(y 0).val, (y 0).isLt⟩ : Fin 1024) (⟨(y 1).val - 128 * c, by omega⟩ : Fin 128)) := by
  have hy0 : (y 0).val < 1024 := (y 0).isLt
  have hy1 : (y 1).val < 640 := (y 1).isLt
  unfold View.readCov
  rw [View.readAt_apply]
  have hidx : (Rect.unit (s := S1024x640) ![0, 0] S1024x640.size Gen.inb_S1024x640_S1024x640_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [hidx]
  obtain rfl | rfl | rfl | rfl | rfl : c = 0 ∨ c = 1 ∨ c = 2 ∨ c = 3 ∨ c = 4 := by omega
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      (((View.read_writes_cons_unit_of_not_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 384 ∨ 384 + 128 ≤ (y 1).val; omega))).trans
      (((View.read_writes_cons_unit_of_not_mem arg6.view arg6.view.junk Gen.inb_S1024x640_S1024x128_0_256 W2 [⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 256 ∨ 256 + 128 ≤ (y 1).val; omega))).trans
      (((View.read_writes_cons_unit_of_not_mem arg6.view arg6.view.junk Gen.inb_S1024x640_S1024x128_0_128 W1 [⟨Rect.unit (s := S1024x640) ![0, 0] S1024x128.size Gen.inb_S1024x640_S1024x128_0_0, W0⟩] y rfl (1 : Fin 2)
        (by show (y 1).val < 128 ∨ 128 + 128 ≤ (y 1).val; omega))).trans
      ((View.read_writes_cons_unit_of_mem arg6.view arg6.view.junk Gen.inb_S1024x640_S1024x128_0_0 W0 [] y
        (ix2 (⟨(y 0).val, hy0⟩ : Fin 1024) (⟨(y 1).val - 0, by omega⟩ : Fin 128)) rfl
        (fun a => match a with
          | ⟨0, _⟩ => by show (y 0).val = 0 + (y 0).val; omega
          | ⟨1, _⟩ => by show (y 1).val = 0 + ((y 1).val - 0); omega))))))
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      (((View.read_writes_cons_unit_of_not_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 384 ∨ 384 + 128 ≤ (y 1).val; omega))).trans
      (((View.read_writes_cons_unit_of_not_mem arg6.view arg6.view.junk Gen.inb_S1024x640_S1024x128_0_256 W2 [⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 256 ∨ 256 + 128 ≤ (y 1).val; omega))).trans
      ((View.read_writes_cons_unit_of_mem arg6.view arg6.view.junk Gen.inb_S1024x640_S1024x128_0_128 W1 [⟨Rect.unit (s := S1024x640) ![0, 0] S1024x128.size Gen.inb_S1024x640_S1024x128_0_0, W0⟩] y
        (ix2 (⟨(y 0).val, hy0⟩ : Fin 1024) (⟨(y 1).val - 128, by omega⟩ : Fin 128)) rfl
        (fun a => match a with
          | ⟨0, _⟩ => by show (y 0).val = 0 + (y 0).val; omega
          | ⟨1, _⟩ => by show (y 1).val = 128 + ((y 1).val - 128); omega)))))
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      (((View.read_writes_cons_unit_of_not_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 384 ∨ 384 + 128 ≤ (y 1).val; omega))).trans
      ((View.read_writes_cons_unit_of_mem arg6.view arg6.view.junk Gen.inb_S1024x640_S1024x128_0_256 W2 [⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y
        (ix2 (⟨(y 0).val, hy0⟩ : Fin 1024) (⟨(y 1).val - 256, by omega⟩ : Fin 128)) rfl
        (fun a => match a with
          | ⟨0, _⟩ => by show (y 0).val = 0 + (y 0).val; omega
          | ⟨1, _⟩ => by show (y 1).val = 256 + ((y 1).val - 256); omega))))
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      ((View.read_writes_cons_unit_of_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y
        (ix2 (⟨(y 0).val, hy0⟩ : Fin 1024) (⟨(y 1).val - 384, by omega⟩ : Fin 128)) rfl
        (fun a => match a with
          | ⟨0, _⟩ => by show (y 0).val = 0 + (y 0).val; omega
          | ⟨1, _⟩ => by show (y 1).val = 384 + ((y 1).val - 384); omega)))
  · exact (View.read_writes_cons_unit_of_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y
        (ix2 (⟨(y 0).val, hy0⟩ : Fin 1024) (⟨(y 1).val - 512, by omega⟩ : Fin 128)) rfl
        (fun a => match a with
          | ⟨0, _⟩ => by show (y 0).val = 0 + (y 0).val; omega
          | ⟨1, _⟩ => by show (y 1).val = 512 + ((y 1).val - 512); omega))

end Cols

/-! ## One trip of the row loop -/

theorem trips_eq : k0_t1_loop.trips = 16 := by decide
theorem off1_eq : ∀ k : Fin k0_t1_loop.trips, k0_off1 k = ![k.val, 0, 0] := by decide +kernel
theorem off2_eq : ∀ k : Fin k0_t1_loop.trips, k0_off2 k = ![k.val, 0, 0] := by decide +kernel

theorem pay5_eq (v : Vec F S1024x128 .bf16) : k0_pay5 v = v := shapeCast_self _ _
theorem pay6_eq (v : Vec F S1024x128 .bf16) : k0_pay6 v = v := shapeCast_self _ _
theorem pay7_eq (v : Vec F S1024x128 .bf16) : k0_pay7 v = v := shapeCast_self _ _
theorem pay8_eq (v : Vec F S1024x128 .bf16) : k0_pay8 v = v := shapeCast_self _ _
theorem pay9_eq (v : Vec F S1024x128 .bf16) : k0_pay9 v = v := shapeCast_self _ _

section Trip

variable (arg1 : Memref sig .tc .vmem S16x1024x128 .f32) (arg5 : Memref sig .tc .vmem S1056x128 .bf16) (arg6 : Memref sig .tc .vmem S1024x640 .bf16)
  (X : BufTy.Contents (Elt F) arg1.view.ty) (k : Fin k0_t1_loop.trips)

/-- Row block `k` of the input block, as trip `k` loads it. -/
def xrow : S1x1024x128.Idx → Elt F EltTy.f32 :=
  View.readAt (Elt F) arg1.view (Rect.unit (s := S16x1024x128) (k0_off1 k) S1x1024x128.size (k0_off1_inb k)).toLoadRect X

theorem hw5_eq : trip_k0_t1.sl.HW_arg5_1 arg1 X k
    = [⟨Rect.unit (s := S1056x128) ![16, 0] S1024x128.size Gen.inb_S1056x128_S1024x128_16_0, k0_pay4 (xrow arg1 X k)⟩] := rfl

/-- The halo buffer's two margins (rows 0 … 15 and 1040 … 1055) hold the margin value. -/
def Halo (f5 : BufTy.Contents (Elt F) arg5.view.ty) : Prop :=
  ∀ (r : Fin 1056) (e : Fin 128), (r.val < 16 ∨ 1040 ≤ r.val) → arg5.view.read (Elt F) f5 (ix2 r e) = zeroB (F := F)

/-- Tap `c` of the window matrix is rows `14 + c …` of the halo buffer once the row block sits at rows 16 … 1039 and the
    margins hold the margin value (or, for the tap that reads exactly the stored rows, whatever the margins hold). -/
theorem tap_zrow (f5 : BufTy.Contents (Elt F) arg5.view.ty) (P : S1024x128.Idx → Elt F EltTy.bf16) (o c : ℕ) (hoc : o = 14 + c)
    (inbo : ∀ a, (![o, 0] : Fin 2 → Nat) a + S1024x128.size a ≤ S1056x128.size a)
    (h5 : c = 2 ∨ Halo arg5 f5) (y : S1024x640.Idx) (hy : 128 * c ≤ (y 1).val ∧ (y 1).val < 128 * c + 128) :
    View.readAt (Elt F) arg5.view (Rect.unit (s := S1056x128) ![o, 0] S1024x128.size inbo).toLoadRect
        (arg5.view.writes (Elt F) f5 [⟨Rect.unit (s := S1056x128) ![16, 0] S1024x128.size Gen.inb_S1056x128_S1024x128_16_0, P⟩])
        (ix2 (⟨(y 0).val, (y 0).isLt⟩ : Fin 1024) (⟨(y 1).val - 128 * c, by omega⟩ : Fin 128))
      = zrow P y := by
  have hy0 : (y 0).val < 1024 := (y 0).isLt
  have hy1 : (y 1).val < 640 := (y 1).isLt
  subst hoc
  rw [tap_read]
  unfold zrow
  by_cases h : 2 ≤ (y 0).val + (y 1).val / 128 ∧ (y 0).val + (y 1).val / 128 < 1026
  · rw [dif_pos h, dif_pos (by show 16 ≤ 14 + c + (y 0).val ∧ 14 + c + (y 0).val < 1040; omega)]
    congr 1
    funext a
    match a with
    | ⟨0, _⟩ => exact Fin.ext (by show 14 + c + (y 0).val - 16 = (y 0).val + (y 1).val / 128 - 2; omega)
    | ⟨1, _⟩ => exact Fin.ext (by show (y 1).val - 128 * c = (y 1).val % 128; omega)
  · rw [dif_neg h, dif_neg (by show ¬(16 ≤ 14 + c + (y 0).val ∧ 14 + c + (y 0).val < 1040); omega)]
    rcases h5 with h5 | h5
    · exfalso; omega
    · exact h5 _ _ (by show 14 + c + (y 0).val < 16 ∨ 1040 ≤ 14 + c + (y 0).val; omega)

/-- What trip `k` reads back as the whole window buffer is the window matrix of row block `k`, whenever the halo buffer's
    margins held the margin value when the trip began. -/
theorem v40_eq (f5 : BufTy.Contents (Elt F) arg5.view.ty) (h5 : Halo arg5 f5) :
    trip_k0_t1.sl.v40 arg1 arg5 arg6 X k f5 = zrow (k0_pay4 (xrow arg1 X k)) := by
  funext y
  have hy0 : (y 0).val < 1024 := (y 0).isLt
  have hy1 : (y 1).val < 640 := (y 1).isLt
  unfold trip_k0_t1.sl.v40 trip_k0_t1.sl.HW_arg6_5
  obtain hc | hc | hc | hc | hc : (y 1).val / 128 = 0 ∨ (y 1).val / 128 = 1 ∨ (y 1).val / 128 = 2 ∨ (y 1).val / 128 = 3 ∨ (y 1).val / 128 = 4 := by omega
  · -- tap 0: columns 0 … 127
    rw [col_read arg6 _ _ _ _ _ y 0 (by omega) (by omega)]
    rw [if_pos rfl]
    rw [pay5_eq, hw5_eq]

    exact tap_zrow arg5 _ (k0_pay4 (xrow arg1 X k)) 14 0 rfl _ (Or.inr h5) y (by omega)
  · -- tap 1: columns 128 … 255
    rw [col_read arg6 _ _ _ _ _ y 1 (by omega) (by omega)]
    rw [if_neg (by decide), if_pos rfl]
    rw [pay6_eq, hw5_eq]

    exact tap_zrow arg5 _ (k0_pay4 (xrow arg1 X k)) 15 1 rfl _ (Or.inr h5) y (by omega)
  · -- tap 2: columns 256 … 383
    rw [col_read arg6 _ _ _ _ _ y 2 (by omega) (by omega)]
    rw [if_neg (by decide), if_neg (by decide), if_pos rfl]
    rw [pay7_eq]
    unfold trip_k0_t1.sl.v28 View.readCov
    rw [hw5_eq]
    exact tap_zrow arg5 _ (k0_pay4 (xrow arg1 X k)) 16 2 rfl _ (Or.inl rfl) y (by omega)
  · -- tap 3: columns 384 … 511
    rw [col_read arg6 _ _ _ _ _ y 3 (by omega) (by omega)]
    rw [if_neg (by decide), if_neg (by decide), if_neg (by decide), if_pos rfl]
    rw [pay8_eq, hw5_eq]

    exact tap_zrow arg5 _ (k0_pay4 (xrow arg1 X k)) 17 3 rfl _ (Or.inr h5) y (by omega)
  · -- tap 4: columns 512 … 639
    rw [col_read arg6 _ _ _ _ _ y 4 (by omega) (by omega)]
    rw [if_neg (by decide), if_neg (by decide), if_neg (by decide), if_neg (by decide)]
    rw [pay9_eq, hw5_eq]

    exact tap_zrow arg5 _ (k0_pay4 (xrow arg1 X k)) 18 4 rfl _ (Or.inr h5) y (by omega)

end Trip

end Cert.Kernel.Body

end
-- ==== Proof.KRun.lean ====
/-
  The body of the kernel at one grid point, and the program's run, for any float instance.

  One grid point handles sixteen batch rows. The body first stores the margin value into the two margins of a halo buffer,
  then loops over the rows: trip k writes batch row k between the margins, lays its five shifted copies side by side in a
  window buffer, multiplies the weights by that window matrix and stores the product plus the bias as row k of the output
  block. The loop's invariant (`pb_inv`) says: after n trips the first n rows of the output block are final and the
  margins still hold the margin value; so the result (`outSpec`) depends on the three input blocks only, not on what the
  two scratch buffers held when the point began. From that follow the body's triple on any staging buffers
  (`sound_kernel`), the proof data of the pipeline (`dats`: after each point the output window's buffer holds `outAt`),
  the body obligation, the run and the frame.
-/
import proofs.«110926_j54116587929806_2_alg».proof.Proof.Gen.Kernel.Frame
import proofs.«110926_j54116587929806_2_alg».proof.Proof.Gen.Kernel.Loops
import proofs.«110926_j54116587929806_2_alg».proof.Proof.Gen.Kernel.Skeleton
import proofs.«110926_j54116587929806_2_alg».proof.Proof.KWindow
import Idealize.ShloMosaic.Lib.Pipeline.FrameBody
import Idealize.ShloMosaic.Lib.Pipeline.Value
import Idealize.ShloMosaic.Lib.WritesUnit
import Idealize.ShloMosaic.Lib.WholeRead
import Idealize.ShloMosaic.Lib.ValueIdx
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Loop

variable (c : Dev nD) (i : grid0.Coords)
  (arg1 : Memref sig .tc .vmem S16x1024x128 .f32) (harg1 : arg1.IsWhole) (arg2 : Memref sig .tc .vmem S64x640 .bf16) (harg2 : arg2.IsWhole)
  (arg3 : Memref sig .tc .vmem S64x1 .f32) (harg3 : arg3.IsWhole) (arg4 : Memref sig .tc .vmem S16x64x1024 .f32) (harg4 : arg4.IsWhole)
  (arg5 : Memref sig .tc .vmem S1056x128 .bf16) (harg5 : arg5.IsWhole) (arg6 : Memref sig .tc .vmem S1024x640 .bf16) (harg6 : arg6.IsWhole)
  (v8 : Vec F S64x1 .f32) (v10 : Vec F S64x640 .bf16) (X : BufTy.Contents (Elt F) arg1.view.ty)
  (g4 : BufTy.Contents (Elt F) arg4.view.ty) (G5 : BufTy.Contents (Elt F) arg5.view.ty) (g6 : BufTy.Contents (Elt F) arg6.view.ty)

/-- What the output block holds once all sixteen batch rows have been written: row `j` is the contraction of the weights
    with the window matrix of batch row `j`, plus the bias — whatever the two scratch buffers held before. -/
def outSpec : S16x64x1024.Idx → Elt F EltTy.f32 := fun y =>
  k0_pay3 v8 v10 (zrow (k0_pay4 (xrow arg1 X ⟨(y 0).val, trips_eq ▸ (y 0).isLt⟩)))
    (ix3 (0 : Fin 1) (⟨(y 1).val, (y 1).isLt⟩ : Fin 64) (⟨(y 2).val, (y 2).isLt⟩ : Fin 1024))

theorem trip_fst (k : Fin k0_t1_loop.trips) (f4 : BufTy.Contents (Elt F) arg4.view.ty) (f5 : BufTy.Contents (Elt F) arg5.view.ty) (f6 : BufTy.Contents (Elt F) arg6.view.ty) :
    (trip_k0_t1 (F := F) Variants.none c none i arg1 harg1 arg2 harg2 arg3 harg3 arg4 harg4 arg5 harg5 arg6 harg6 v8 v10 X k).1 f4 f5 f6
      = [⟨Rect.unit (s := S16x64x1024) (k0_off2 k) S1x64x1024.size (Gen.k0_off2_inb k), k0_pay3 v8 v10 (trip_k0_t1.sl.v40 arg1 arg5 arg6 X k f5)⟩] := by
  unfold trip_k0_t1; rfl

theorem trip_snd (k : Fin k0_t1_loop.trips) (f4 : BufTy.Contents (Elt F) arg4.view.ty) (f5 : BufTy.Contents (Elt F) arg5.view.ty) (f6 : BufTy.Contents (Elt F) arg6.view.ty) :
    (trip_k0_t1 (F := F) Variants.none c none i arg1 harg1 arg2 harg2 arg3 harg3 arg4 harg4 arg5 harg5 arg6 harg6 v8 v10 X k).2.1 f4 f5 f6
      = [⟨Rect.unit (s := S1056x128) ![16, 0] S1024x128.size Gen.inb_S1056x128_S1024x128_16_0, k0_pay4 (xrow arg1 X k)⟩] := by
  unfold trip_k0_t1; rfl

/-- After `n` trips: the first `n` rows of the output block are final, and the halo buffer's margins still hold the
    margin value (each trip overwrites rows 16 … 1039 only). By induction on `n`. -/
theorem pb_inv (hG5 : Halo arg5 G5) : ∀ n, n ≤ 16 →
    (∀ y : S16x64x1024.Idx, (y 0).val < n →
        arg4.view.read (Elt F) (arg4.view.writes (Elt F) g4
          (pb_k0_t1 (F := F) Variants.none c none i arg1 harg1 arg2 harg2 arg3 harg3 arg4 harg4 arg5 harg5 arg6 harg6 v8 v10 X g4 G5 g6 n).1) y
          = outSpec arg1 v8 v10 X y)
    ∧ Halo arg5 (arg5.view.writes (Elt F) G5
          (pb_k0_t1 (F := F) Variants.none c none i arg1 harg1 arg2 harg2 arg3 harg3 arg4 harg4 arg5 harg5 arg6 harg6 v8 v10 X g4 G5 g6 n).2.1) := by
  intro n
  induction n with
  | zero =>
    intro _
    refine ⟨fun y h => absurd h (Nat.not_lt_zero _), ?_⟩
    rw [pb_k0_t1.eq_1]; exact hG5
  | succ n ih =>
    intro hn
    obtain ⟨ih4, ih5⟩ := ih (by omega)
    have hk : n < k0_t1_loop.trips := by rw [trips_eq]; omega
    have e := pb_k0_t1_succ (F := F) Variants.none c none i arg1 harg1 arg2 harg2 arg3 harg3 arg4 harg4 arg5 harg5 arg6 harg6 v8 v10 X g4 G5 g6 ⟨n, hk⟩
    have e' : pb_k0_t1 (F := F) Variants.none c none i arg1 harg1 arg2 harg2 arg3 harg3 arg4 harg4 arg5 harg5 arg6 harg6 v8 v10 X g4 G5 g6 (n + 1) = _ := e
    constructor
    · intro y hy
      rw [e']; dsimp only
      rw [View.writes_append, trip_fst, v40_eq arg1 arg5 arg6 X ⟨n, hk⟩ _ ih5]
      by_cases hyn : (y 0).val = n
      · have hk' : (⟨(y 0).val, trips_eq ▸ (y 0).isLt⟩ : Fin k0_t1_loop.trips) = ⟨n, hk⟩ := Fin.ext hyn
        unfold outSpec
        rw [hk']
        exact View.read_writes_cons_unit_of_mem arg4.view _ (Gen.k0_off2_inb ⟨n, hk⟩) _ [] y
          (ix3 (0 : Fin 1) (⟨(y 1).val, (y 1).isLt⟩ : Fin 64) (⟨(y 2).val, (y 2).isLt⟩ : Fin 1024)) (off2_eq ⟨n, hk⟩)
          (fun a => match a with
            | ⟨0, _⟩ => by show (y 0).val = n + 0; omega
            | ⟨1, _⟩ => by show (y 1).val = 0 + (y 1).val; omega
            | ⟨2, _⟩ => by show (y 2).val = 0 + (y 2).val; omega)
      · exact (View.read_writes_cons_unit_of_not_mem arg4.view _ (Gen.k0_off2_inb ⟨n, hk⟩) _ [] y (off2_eq ⟨n, hk⟩) (0 : Fin 3)
          (Or.inl (by show (y 0).val < n; omega))).trans (ih4 y (by omega))
    · rw [e']; dsimp only
      rw [View.writes_append, trip_snd]
      intro r e hr
      exact (View.read_writes_cons_unit_of_not_mem arg5.view _ Gen.inb_S1056x128_S1024x128_16_0 _ [] (ix2 r e) rfl (0 : Fin 2)
        (by show r.val < 16 ∨ 16 + 1024 ≤ r.val; omega)).trans (ih5 r e hr)

/-- The output block after the loop, read whole. -/
theorem pb_out (hG5 : Halo arg5 G5) (n : ℕ) (hn : n = 16) :
    arg4.view.read (Elt F) (arg4.view.writes (Elt F) g4
      (pb_k0_t1 (F := F) Variants.none c none i arg1 harg1 arg2 harg2 arg3 harg3 arg4 harg4 arg5 harg5 arg6 harg6 v8 v10 X g4 G5 g6 n).1)
      = outSpec arg1 v8 v10 X := by
  subst hn
  funext y
  exact (pb_inv c i arg1 harg1 arg2 harg2 arg3 harg3 arg4 harg4 arg5 harg5 arg6 harg6 v8 v10 X g4 G5 g6 hG5 16 le_rfl).1 y (y 0).isLt

/-- After the two margin stores the halo buffer's margins hold the margin value, whatever it held before. -/
theorem halo_init (g5 : BufTy.Contents (Elt F) arg5.view.ty) :
    Halo arg5 (arg5.view.writes (Elt F) g5
      [⟨Rect.unit (s := S1056x128) ![1040, 0] S16x128.size Gen.inb_S1056x128_S16x128_1040_0, k0_pay2⟩,
        ⟨Rect.unit (s := S1056x128) ![0, 0] S16x128.size Gen.inb_S1056x128_S16x128_0_0, k0_pay1⟩]) := by
  intro r e hr
  rcases hr with hr | hr
  · refine (View.read_writes_cons_unit_of_not_mem arg5.view _ Gen.inb_S1056x128_S16x128_1040_0 _ _ (ix2 r e) rfl (0 : Fin 2)
      (Or.inl (by show r.val < 1040; omega))).trans ?_
    refine (View.read_writes_cons_unit_of_mem arg5.view _ Gen.inb_S1056x128_S16x128_0_0 _ [] (ix2 r e)
      (ix2 (⟨r.val, hr⟩ : Fin 16) e) rfl (fun a => match a with
        | ⟨0, _⟩ => by show r.val = 0 + r.val; omega
        | ⟨1, _⟩ => by show e.val = 0 + e.val; omega)).trans ?_
    exact pay1_apply _
  · have hr' : r.val < 1056 := r.isLt
    refine (View.read_writes_cons_unit_of_mem arg5.view _ Gen.inb_S1056x128_S16x128_1040_0 _ _ (ix2 r e)
      (ix2 (⟨r.val - 1040, by omega⟩ : Fin 16) e) rfl (fun a => match a with
        | ⟨0, _⟩ => by show r.val = 1040 + (r.val - 1040); omega
        | ⟨1, _⟩ => by show e.val = 0 + e.val; omega)).trans ?_
    exact pay2_apply _

end Loop

/-! ## The body on any staging memrefs -/

section Kernel

local notation "𝕄" => MT nD τ sig Unit (Elt F) ℕ (UR sig nD τ) ℕ

/-- What the body leaves in the output window's block, as a function of the three input blocks. -/
def outOf (arg1 : Memref sig .tc .vmem S16x1024x128 .f32) (harg1 : arg1.IsWhole) (arg2 : Memref sig .tc .vmem S64x640 .bf16) (harg2 : arg2.IsWhole)
    (arg3 : Memref sig .tc .vmem S64x1 .f32) (harg3 : arg3.IsWhole)
    (x0 : Vec F S16x1024x128 .f32) (x1 : Vec F S64x640 .bf16) (x2 : Vec F S64x1 .f32) : S16x64x1024.Idx → Elt F EltTy.f32 :=
  outSpec arg1
    (View.readAt (Elt F) arg3.view (Rect.unit (s := S64x1) ![0, 0] S64x1.size Gen.inb_S64x1_S64x1_0_0).toLoadRect (harg3.unread x2))
    (View.readAt (Elt F) arg2.view (Rect.unit (s := S64x640) ![0, 0] S64x640.size Gen.inb_S64x640_S64x640_0_0).toLoadRect (harg2.unread x1))
    (harg1.unread x0)

/-- The body runs: holding the three input blocks, the output buffer and the two scratch buffers at anything, it
    terminates with the inputs as they were, the output buffer at `outOf` of them and the scratch at something. -/
theorem sound_kernel (c : Dev nD) (i : grid0.Coords)
    (arg1 : Memref sig .tc .vmem S16x1024x128 .f32) (harg1 : arg1.IsWhole) (arg2 : Memref sig .tc .vmem S64x640 .bf16) (harg2 : arg2.IsWhole)
  (arg3 : Memref sig .tc .vmem S64x1 .f32) (harg3 : arg3.IsWhole) (arg4 : Memref sig .tc .vmem S16x64x1024 .f32) (harg4 : arg4.IsWhole)
  (arg5 : Memref sig .tc .vmem S1056x128 .bf16) (harg5 : arg5.IsWhole) (arg6 : Memref sig .tc .vmem S1024x640 .bf16) (harg6 : arg6.IsWhole)
    (x0 : Vec F S16x1024x128 .f32) (x1 : Vec F S64x640 .bf16) (x2 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outOf arg1 harg1 arg2 harg2 arg3 harg3 x0 x1 x2)
            ∗ (∃ d, owns (c : Thread nD τ) arg5 fullShare d) ∗ (∃ d, owns (c : Thread nD τ) arg6 fullShare d)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d4, %g4, -, H4⟩, ⟨%d5, %g5, -, H5⟩, ⟨%d6, %g6, -, H6⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    exact pb_out c i arg1 harg1 arg2 harg2 arg3 harg3 arg4 harg4 arg5 harg5 arg6 harg6 _ _ _ g4 _ g6 (halo_init arg5 g5) _ trips_eq
  isplitl [H5]
  · iexists _, _; isplitr
    swap; · iexact H5
    ipureintro; rfl
  iexists _, _; isplitr
  swap; · iexact H6
  ipureintro; rfl

end Kernel

/-! ## The proof data, the body obligation, the run -/

section Frame

local notation "𝕄" => MT nD τ sig Unit (Elt F) ℕ (UR sig nD τ) ℕ

variable (m : (ℓ : Loc nD τ sig) → Buf (Elt F) ℓ) (ρ : Dev nD → PrngReg)

/-- Each window's current staging memref at point `t`, and the two scratch buffers. -/
abbrev ms0 (t : Fin cfg0.N) : Memref sig .tc .vmem S16x1024x128 .f32 := win0_0.stage (cfg0.slots t 0)
abbrev hs0 (t : Fin cfg0.N) : (ms0 t).IsWhole := Gen.hstage0_0 ((cfg0.slots t 0).cast nbuf0_0)
abbrev ms1 (t : Fin cfg0.N) : Memref sig .tc .vmem S64x640 .bf16 := win0_1.stage (cfg0.slots t 1)
abbrev hs1 (t : Fin cfg0.N) : (ms1 t).IsWhole := Gen.hstage0_1 ((cfg0.slots t 1).cast nbuf0_1)
abbrev ms2 (t : Fin cfg0.N) : Memref sig .tc .vmem S64x1 .f32 := win0_2.stage (cfg0.slots t 2)
abbrev hs2 (t : Fin cfg0.N) : (ms2 t).IsWhole := Gen.hstage0_2 ((cfg0.slots t 2).cast nbuf0_2)
abbrev ms3 (t : Fin cfg0.N) : Memref sig .tc .vmem S16x64x1024 .f32 := win0_3.stage (cfg0.slots t 3)
abbrev hs3 (t : Fin cfg0.N) : (ms3 t).IsWhole := Gen.hstage0_3 ((cfg0.slots t 3).cast nbuf0_3)
abbrev sc5 : Memref sig .tc .vmem S1056x128 .bf16 := Memref.whole cc0_scratch0
abbrev sc6 : Memref sig .tc .vmem S1024x640 .bf16 := Memref.whole cc0_scratch1

/-- What the body leaves in the output window's buffer at grid point `t`: `outOf` of the three input blocks there. -/
def outAt (c : Dev nD) (t : Fin cfg0.N) : S16x64x1024.Idx → Elt F EltTy.f32 :=
  outOf (ms0 t) (hs0 t) (ms1 t) (hs1 t) (ms2 t) (hs2 t) (iblk m c 0 t) (iblk m c 1 t) (iblk m c 2 t)

/-- The proof data on core `c`: the arrays as the region finds them; after the body at point `t` each input's buffer at
    its block and the output's at `outAt`; the scratch buffers and the generator register at anything, between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points, with the scratch buffers as memrefs owned at some contents. -/
theorem PhiA_eq (c : Dev nD) :
    (Pipeline.ΦA spec0 c : sProp 𝕄)
      = iprop(iprop((∃ d, owns (c : Thread nD τ) sc5 fullShare d) ∗ (∃ d, owns (c : Thread nD τ) sc6 fullShare d)) ∗ (∃ r, prngReg c r)) := by
  unfold Pipeline.ΦA; rw [scopedRest0_eq]; simp only [sc5, sc6, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- The body at any point: the inputs' buffers hold their blocks, the scratch comes out of the invariant at some contents
    and goes back at some contents, the output buffer ends at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA_eq]
  unfold outAt
  iintro ⟨⟨⟨H5, H6⟩, Hg⟩, Ho, ⟨%d0, H0⟩, ⟨%d1, H1⟩, ⟨%d2, H2⟩, ⟨%d3, H3⟩⟩
  iapply (sound_kernel c (grid0.coords t) (ms0 t) (hs0 t) (ms1 t) (hs1 t) (ms2 t) (hs2 t) (ms3 t) (hs3 t) sc5 (Memref.isWhole_whole _) sc6 (Memref.isWhole_whole _)
    (iblk m c 0 t) (iblk m c 1 t) (iblk m c 2 t) Set.univ _)
  isplitl [H0]; · iexact H0
  isplitl [H1]; · iexact H1
  isplitl [H2]; · iexact H2
  isplitl [H3]; · iexists _; iexact H3
  isplitl [H5]; · iexact H5
  isplitl [H6]; · iexact H6
  iintro ⟨H0, H1, H2, H3, H5, H6⟩
  isplitl [H5 H6 Hg]
  · isplitl [H5 H6]
    · isplitl [H5]; · iexact H5
      iexact H6
    iexact Hg
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, each array of the pipeline ending at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Frame

end Cert.Kernel.Body

end
-- ==== Proof.KIWindow.lean ====
/-
  The halo buffer and the window matrix of one batch row, for any float instance.

  Each trip of the body's row loop writes one batch row (1024 positions of 128 lanes) into rows 16 … 1039 of a halo buffer
  of 1056 rows whose two margins (rows 0 … 15 and 1040 … 1055) hold the margin value, then copies five shifted copies of it
  (rows 14 + c …, c = 0 … 4) side by side into the 640 columns of a window buffer. Read back whole, the window buffer is
  therefore the matrix whose entry (t, 128·c + e) is row t + c − 2 of the batch row at lane e when that row exists and the
  margin value otherwise (`zrow`); that is what `v40_eq` says, and the lemmas before it read the two buffers one store
  at a time.
-/
import proofs.«110926_j54116587929806_2_alg».proof.Proof.Gen.KernelIdeal.Frame
import proofs.«110926_j54116587929806_2_alg».proof.Proof.Gen.KernelIdeal.Loops
import proofs.«110926_j54116587929806_2_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.WholeRead
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The halo buffer and the window matrix, for any float instance -/

/-- The value the body's two margin stores write at every entry. -/
def zeroB : Elt F EltTy.bf16 := (k0_pay1 (F := F)) (ix2 (0 : Fin 16) (0 : Fin 128))

theorem pay1_apply (j : S16x128.Idx) : (k0_pay1 (F := F)) j = zeroB (F := F) := by
  unfold zeroB k0_pay1; rfl

theorem pay2_apply (j : S16x128.Idx) : (k0_pay2 (F := F)) j = zeroB (F := F) := by
  unfold zeroB k0_pay1 k0_pay2; rfl

/-- The window matrix built from one row block `p` of the input (1024 rows of 128 lanes): entry `(t, 128·c + e)` is row
    `t + c − 2` of `p` at lane `e` when that row exists, and the margin value otherwise. -/
def zrow (p : S1024x128.Idx → Elt F EltTy.bf16) : S1024x640.Idx → Elt F EltTy.bf16 := fun y =>
  if h : 2 ≤ (y 0).val + (y 1).val / 128 ∧ (y 0).val + (y 1).val / 128 < 1026 then
    p (ix2 (⟨(y 0).val + (y 1).val / 128 - 2, by omega⟩ : Fin 1024) (⟨(y 1).val % 128, Nat.mod_lt _ (by decide)⟩ : Fin 128))
  else zeroB (F := F)

section Reads

variable (arg5 : Memref sig .tc .vmem S1056x128 .bf16) (arg6 : Memref sig .tc .vmem S1024x640 .bf16)

/-- Rows `o … o + 1023` of the halo buffer after the row block `P` has been stored at rows 16 … 1039 over contents `f`:
    inside the stored rows the block, outside them what `f` held. -/
theorem tap_read (f : BufTy.Contents (Elt F) arg5.view.ty) (P : S1024x128.Idx → Elt F EltTy.bf16) (o : ℕ)
    (inbo : ∀ a, (![o, 0] : Fin 2 → Nat) a + S1024x128.size a ≤ S1056x128.size a) (x : S1024x128.Idx) :
    View.readAt (Elt F) arg5.view (Rect.unit (s := S1056x128) ![o, 0] S1024x128.size inbo).toLoadRect
        (arg5.view.writes (Elt F) f [⟨Rect.unit (s := S1056x128) ![16, 0] S1024x128.size Gen.inb_S1056x128_S1024x128_16_0, P⟩]) x
      = if h : 16 ≤ o + (x 0).val ∧ o + (x 0).val < 1040 then
          P (ix2 (⟨o + (x 0).val - 16, by omega⟩ : Fin 1024) (⟨(x 1).val, (x 1).isLt⟩ : Fin 128))
        else arg5.view.read (Elt F) f (ix2 (⟨o + (x 0).val, by
            have h0 := inbo 0; have hx : (x 0).val < 1024 := (x 0).isLt
            have : o + 1024 ≤ 1056 := h0
            omega⟩ : Fin 1056) (⟨(x 1).val, (x 1).isLt⟩ : Fin 128)) := by
  have hx0 : (x 0).val < 1024 := (x 0).isLt
  have hx1 : (x 1).val < 128 := (x 1).isLt
  have ho : o + 1024 ≤ 1056 := inbo 0
  rw [View.readAt_apply]
  have hidx : (Rect.unit (s := S1056x128) ![o, 0] S1024x128.size inbo).toLoadRect.idx x
      = ix2 (⟨o + (x 0).val, by omega⟩ : Fin 1056) (⟨(x 1).val, hx1⟩ : Fin 128) := by
    funext a
    match a with
    | ⟨0, _⟩ => exact Fin.ext (by show o + 1 * (x 0).val = o + (x 0).val; omega)
    | ⟨1, _⟩ => exact Fin.ext (by show 0 + 1 * (x 1).val = (x 1).val; omega)
  rw [hidx]
  by_cases h : 16 ≤ o + (x 0).val ∧ o + (x 0).val < 1040
  · rw [dif_pos h]
    exact View.read_writes_cons_unit_of_mem arg5.view f Gen.inb_S1056x128_S1024x128_16_0 P [] _
      (ix2 (⟨o + (x 0).val - 16, by omega⟩ : Fin 1024) (⟨(x 1).val, hx1⟩ : Fin 128)) rfl
      (fun a => match a with
        | ⟨0, _⟩ => by show o + (x 0).val = 16 + (o + (x 0).val - 16); omega
        | ⟨1, _⟩ => by show (x 1).val = 0 + (x 1).val; omega)
  · rw [dif_neg h]
    exact View.read_writes_cons_unit_of_not_mem arg5.view f Gen.inb_S1056x128_S1024x128_16_0 P [] _ rfl (0 : Fin 2)
      (by show o + (x 0).val < 16 ∨ 16 + 1024 ≤ o + (x 0).val; omega)

end Reads

section Cols

variable (arg6 : Memref sig .tc .vmem S1024x640 .bf16)

/-- The window buffer read whole after its five column blocks (128 lanes each) have been stored: column `128·c + e`
    reads block `c` at lane `e`. -/
theorem col_read (W0 W1 W2 W3 W4 : S1024x128.Idx → Elt F EltTy.bf16) (y : S1024x640.Idx) (c : ℕ) (hc : c < 5)
    (hy : 128 * c ≤ (y 1).val ∧ (y 1).val < 128 * c + 128) :
    arg6.view.readCov
        [⟨Rect.unit (s := S1024x640) ![0, 512] S1024x128.size Gen.inb_S1024x640_S1024x128_0_512, W4⟩,
         ⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩]
        (Rect.unit (s := S1024x640) ![0, 0] S1024x640.size Gen.inb_S1024x640_S1024x640_0_0).toLoadRect y
      = (if c = 0 then W0 else if c = 1 then W1 else if c = 2 then W2 else if c = 3 then W3 else W4)
          (ix2 (⟨(y 0).val, (y 0).isLt⟩ : Fin 1024) (⟨(y 1).val - 128 * c, by omega⟩ : Fin 128)) := by
  have hy0 : (y 0).val < 1024 := (y 0).isLt
  have hy1 : (y 1).val < 640 := (y 1).isLt
  unfold View.readCov
  rw [View.readAt_apply]
  have hidx : (Rect.unit (s := S1024x640) ![0, 0] S1024x640.size Gen.inb_S1024x640_S1024x640_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [hidx]
  obtain rfl | rfl | rfl | rfl | rfl : c = 0 ∨ c = 1 ∨ c = 2 ∨ c = 3 ∨ c = 4 := by omega
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      (((View.read_writes_cons_unit_of_not_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 384 ∨ 384 + 128 ≤ (y 1).val; omega))).trans
      (((View.read_writes_cons_unit_of_not_mem arg6.view arg6.view.junk Gen.inb_S1024x640_S1024x128_0_256 W2 [⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 256 ∨ 256 + 128 ≤ (y 1).val; omega))).trans
      (((View.read_writes_cons_unit_of_not_mem arg6.view arg6.view.junk Gen.inb_S1024x640_S1024x128_0_128 W1 [⟨Rect.unit (s := S1024x640) ![0, 0] S1024x128.size Gen.inb_S1024x640_S1024x128_0_0, W0⟩] y rfl (1 : Fin 2)
        (by show (y 1).val < 128 ∨ 128 + 128 ≤ (y 1).val; omega))).trans
      ((View.read_writes_cons_unit_of_mem arg6.view arg6.view.junk Gen.inb_S1024x640_S1024x128_0_0 W0 [] y
        (ix2 (⟨(y 0).val, hy0⟩ : Fin 1024) (⟨(y 1).val - 0, by omega⟩ : Fin 128)) rfl
        (fun a => match a with
          | ⟨0, _⟩ => by show (y 0).val = 0 + (y 0).val; omega
          | ⟨1, _⟩ => by show (y 1).val = 0 + ((y 1).val - 0); omega))))))
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      (((View.read_writes_cons_unit_of_not_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 384 ∨ 384 + 128 ≤ (y 1).val; omega))).trans
      (((View.read_writes_cons_unit_of_not_mem arg6.view arg6.view.junk Gen.inb_S1024x640_S1024x128_0_256 W2 [⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 256 ∨ 256 + 128 ≤ (y 1).val; omega))).trans
      ((View.read_writes_cons_unit_of_mem arg6.view arg6.view.junk Gen.inb_S1024x640_S1024x128_0_128 W1 [⟨Rect.unit (s := S1024x640) ![0, 0] S1024x128.size Gen.inb_S1024x640_S1024x128_0_0, W0⟩] y
        (ix2 (⟨(y 0).val, hy0⟩ : Fin 1024) (⟨(y 1).val - 128, by omega⟩ : Fin 128)) rfl
        (fun a => match a with
          | ⟨0, _⟩ => by show (y 0).val = 0 + (y 0).val; omega
          | ⟨1, _⟩ => by show (y 1).val = 128 + ((y 1).val - 128); omega)))))
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      (((View.read_writes_cons_unit_of_not_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 384 ∨ 384 + 128 ≤ (y 1).val; omega))).trans
      ((View.read_writes_cons_unit_of_mem arg6.view arg6.view.junk Gen.inb_S1024x640_S1024x128_0_256 W2 [⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y
        (ix2 (⟨(y 0).val, hy0⟩ : Fin 1024) (⟨(y 1).val - 256, by omega⟩ : Fin 128)) rfl
        (fun a => match a with
          | ⟨0, _⟩ => by show (y 0).val = 0 + (y 0).val; omega
          | ⟨1, _⟩ => by show (y 1).val = 256 + ((y 1).val - 256); omega))))
  · exact ((View.read_writes_cons_unit_of_not_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y rfl (1 : Fin 2)
        (by show (y 1).val < 512 ∨ 512 + 128 ≤ (y 1).val; omega))).trans
      ((View.read_writes_cons_unit_of_mem arg6.view arg6.view.junk Gen.inb_S1024x640_S1024x128_0_384 W3 [⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y
        (ix2 (⟨(y 0).val, hy0⟩ : Fin 1024) (⟨(y 1).val - 384, by omega⟩ : Fin 128)) rfl
        (fun a => match a with
          | ⟨0, _⟩ => by show (y 0).val = 0 + (y 0).val; omega
          | ⟨1, _⟩ => by show (y 1).val = 384 + ((y 1).val - 384); omega)))
  · exact (View.read_writes_cons_unit_of_mem arg6.view arg6.view.junk Gen.inb_S1024x640_S1024x128_0_512 W4 [⟨Rect.unit (s := S1024x640) ![0, 384] S1024x128.size Gen.inb_S1024x640_S1024x128_0_384, W3⟩,
         ⟨Rect.unit (s := S1024x640) ![0, 256] S1024x128.size Gen.inb_S1024x640_S1024x128_0_256, W2⟩,
         ⟨Rect.unit (s := S1024x640) ![0, 128] S1024x128.size Gen.inb_S1024x640_S1024x128_0_128, W1⟩,
         ⟨Rect.unit (s := S1024x640) ![0, 0] S1024x128.size Gen.inb_S1024x640_S1024x128_0_0, W0⟩] y
        (ix2 (⟨(y 0).val, hy0⟩ : Fin 1024) (⟨(y 1).val - 512, by omega⟩ : Fin 128)) rfl
        (fun a => match a with
          | ⟨0, _⟩ => by show (y 0).val = 0 + (y 0).val; omega
          | ⟨1, _⟩ => by show (y 1).val = 512 + ((y 1).val - 512); omega))

end Cols

/-! ## One trip of the row loop -/

theorem trips_eq : k0_t1_loop.trips = 16 := by decide
theorem off1_eq : ∀ k : Fin k0_t1_loop.trips, k0_off1 k = ![k.val, 0, 0] := by decide +kernel
theorem off2_eq : ∀ k : Fin k0_t1_loop.trips, k0_off2 k = ![k.val, 0, 0] := by decide +kernel

theorem pay5_eq (v : Vec F S1024x128 .bf16) : k0_pay5 v = v := shapeCast_self _ _
theorem pay6_eq (v : Vec F S1024x128 .bf16) : k0_pay6 v = v := shapeCast_self _ _
theorem pay7_eq (v : Vec F S1024x128 .bf16) : k0_pay7 v = v := shapeCast_self _ _
theorem pay8_eq (v : Vec F S1024x128 .bf16) : k0_pay8 v = v := shapeCast_self _ _
theorem pay9_eq (v : Vec F S1024x128 .bf16) : k0_pay9 v = v := shapeCast_self _ _

section Trip

variable (arg1 : Memref sig .tc .vmem S16x1024x128 .f32) (arg5 : Memref sig .tc .vmem S1056x128 .bf16) (arg6 : Memref sig .tc .vmem S1024x640 .bf16)
  (X : BufTy.Contents (Elt F) arg1.view.ty) (k : Fin k0_t1_loop.trips)

/-- Row block `k` of the input block, as trip `k` loads it. -/
def xrow : S1x1024x128.Idx → Elt F EltTy.f32 :=
  View.readAt (Elt F) arg1.view (Rect.unit (s := S16x1024x128) (k0_off1 k) S1x1024x128.size (k0_off1_inb k)).toLoadRect X

theorem hw5_eq : trip_k0_t1.sl.HW_arg5_1 arg1 X k
    = [⟨Rect.unit (s := S1056x128) ![16, 0] S1024x128.size Gen.inb_S1056x128_S1024x128_16_0, k0_pay4 (xrow arg1 X k)⟩] := rfl

/-- The halo buffer's two margins (rows 0 … 15 and 1040 … 1055) hold the margin value. -/
def Halo (f5 : BufTy.Contents (Elt F) arg5.view.ty) : Prop :=
  ∀ (r : Fin 1056) (e : Fin 128), (r.val < 16 ∨ 1040 ≤ r.val) → arg5.view.read (Elt F) f5 (ix2 r e) = zeroB (F := F)

/-- Tap `c` of the window matrix is rows `14 + c …` of the halo buffer once the row block sits at rows 16 … 1039 and the
    margins hold the margin value (or, for the tap that reads exactly the stored rows, whatever the margins hold). -/
theorem tap_zrow (f5 : BufTy.Contents (Elt F) arg5.view.ty) (P : S1024x128.Idx → Elt F EltTy.bf16) (o c : ℕ) (hoc : o = 14 + c)
    (inbo : ∀ a, (![o, 0] : Fin 2 → Nat) a + S1024x128.size a ≤ S1056x128.size a)
    (h5 : c = 2 ∨ Halo arg5 f5) (y : S1024x640.Idx) (hy : 128 * c ≤ (y 1).val ∧ (y 1).val < 128 * c + 128) :
    View.readAt (Elt F) arg5.view (Rect.unit (s := S1056x128) ![o, 0] S1024x128.size inbo).toLoadRect
        (arg5.view.writes (Elt F) f5 [⟨Rect.unit (s := S1056x128) ![16, 0] S1024x128.size Gen.inb_S1056x128_S1024x128_16_0, P⟩])
        (ix2 (⟨(y 0).val, (y 0).isLt⟩ : Fin 1024) (⟨(y 1).val - 128 * c, by omega⟩ : Fin 128))
      = zrow P y := by
  have hy0 : (y 0).val < 1024 := (y 0).isLt
  have hy1 : (y 1).val < 640 := (y 1).isLt
  subst hoc
  rw [tap_read]
  unfold zrow
  by_cases h : 2 ≤ (y 0).val + (y 1).val / 128 ∧ (y 0).val + (y 1).val / 128 < 1026
  · rw [dif_pos h, dif_pos (by show 16 ≤ 14 + c + (y 0).val ∧ 14 + c + (y 0).val < 1040; omega)]
    congr 1
    funext a
    match a with
    | ⟨0, _⟩ => exact Fin.ext (by show 14 + c + (y 0).val - 16 = (y 0).val + (y 1).val / 128 - 2; omega)
    | ⟨1, _⟩ => exact Fin.ext (by show (y 1).val - 128 * c = (y 1).val % 128; omega)
  · rw [dif_neg h, dif_neg (by show ¬(16 ≤ 14 + c + (y 0).val ∧ 14 + c + (y 0).val < 1040); omega)]
    rcases h5 with h5 | h5
    · exfalso; omega
    · exact h5 _ _ (by show 14 + c + (y 0).val < 16 ∨ 1040 ≤ 14 + c + (y 0).val; omega)

/-- What trip `k` reads back as the whole window buffer is the window matrix of row block `k`, whenever the halo buffer's
    margins held the margin value when the trip began. -/
theorem v40_eq (f5 : BufTy.Contents (Elt F) arg5.view.ty) (h5 : Halo arg5 f5) :
    trip_k0_t1.sl.v40 arg1 arg5 arg6 X k f5 = zrow (k0_pay4 (xrow arg1 X k)) := by
  funext y
  have hy0 : (y 0).val < 1024 := (y 0).isLt
  have hy1 : (y 1).val < 640 := (y 1).isLt
  unfold trip_k0_t1.sl.v40 trip_k0_t1.sl.HW_arg6_5
  obtain hc | hc | hc | hc | hc : (y 1).val / 128 = 0 ∨ (y 1).val / 128 = 1 ∨ (y 1).val / 128 = 2 ∨ (y 1).val / 128 = 3 ∨ (y 1).val / 128 = 4 := by omega
  · -- tap 0: columns 0 … 127
    rw [col_read arg6 _ _ _ _ _ y 0 (by omega) (by omega)]
    rw [if_pos rfl]
    rw [pay5_eq, hw5_eq]

    exact tap_zrow arg5 _ (k0_pay4 (xrow arg1 X k)) 14 0 rfl _ (Or.inr h5) y (by omega)
  · -- tap 1: columns 128 … 255
    rw [col_read arg6 _ _ _ _ _ y 1 (by omega) (by omega)]
    rw [if_neg (by decide), if_pos rfl]
    rw [pay6_eq, hw5_eq]

    exact tap_zrow arg5 _ (k0_pay4 (xrow arg1 X k)) 15 1 rfl _ (Or.inr h5) y (by omega)
  · -- tap 2: columns 256 … 383
    rw [col_read arg6 _ _ _ _ _ y 2 (by omega) (by omega)]
    rw [if_neg (by decide), if_neg (by decide), if_pos rfl]
    rw [pay7_eq]
    unfold trip_k0_t1.sl.v28 View.readCov
    rw [hw5_eq]
    exact tap_zrow arg5 _ (k0_pay4 (xrow arg1 X k)) 16 2 rfl _ (Or.inl rfl) y (by omega)
  · -- tap 3: columns 384 … 511
    rw [col_read arg6 _ _ _ _ _ y 3 (by omega) (by omega)]
    rw [if_neg (by decide), if_neg (by decide), if_neg (by decide), if_pos rfl]
    rw [pay8_eq, hw5_eq]

    exact tap_zrow arg5 _ (k0_pay4 (xrow arg1 X k)) 17 3 rfl _ (Or.inr h5) y (by omega)
  · -- tap 4: columns 512 … 639
    rw [col_read arg6 _ _ _ _ _ y 4 (by omega) (by omega)]
    rw [if_neg (by decide), if_neg (by decide), if_neg (by decide), if_neg (by decide)]
    rw [pay9_eq, hw5_eq]

    exact tap_zrow arg5 _ (k0_pay4 (xrow arg1 X k)) 18 4 rfl _ (Or.inr h5) y (by omega)

end Trip

end Cert.KernelIdeal.Body

end
-- ==== Proof.KIRun.lean ====
/-
  The body of the kernel at one grid point, and the program's run, for any float instance.

  One grid point handles sixteen batch rows. The body first stores the margin value into the two margins of a halo buffer,
  then loops over the rows: trip k writes batch row k between the margins, lays its five shifted copies side by side in a
  window buffer, multiplies the weights by that window matrix and stores the product plus the bias as row k of the output
  block. The loop's invariant (`pb_inv`) says: after n trips the first n rows of the output block are final and the
  margins still hold the margin value; so the result (`outSpec`) depends on the three input blocks only, not on what the
  two scratch buffers held when the point began. From that follow the body's triple on any staging buffers
  (`sound_kernel`), the proof data of the pipeline (`dats`: after each point the output window's buffer holds `outAt`),
  the body obligation, the run and the frame.
-/
import proofs.«110926_j54116587929806_2_alg».proof.Proof.Gen.KernelIdeal.Frame
import proofs.«110926_j54116587929806_2_alg».proof.Proof.Gen.KernelIdeal.Loops
import proofs.«110926_j54116587929806_2_alg».proof.Proof.Gen.KernelIdeal.Skeleton
import proofs.«110926_j54116587929806_2_alg».proof.Proof.KIWindow
import Idealize.ShloMosaic.Lib.Pipeline.FrameBody
import Idealize.ShloMosaic.Lib.Pipeline.Value
import Idealize.ShloMosaic.Lib.WritesUnit
import Idealize.ShloMosaic.Lib.WholeRead
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Loop

variable (c : Dev nD) (i : grid0.Coords)
  (arg1 : Memref sig .tc .vmem S16x1024x128 .f32) (harg1 : arg1.IsWhole) (arg2 : Memref sig .tc .vmem S64x640 .bf16) (harg2 : arg2.IsWhole)
  (arg3 : Memref sig .tc .vmem S64x1 .f32) (harg3 : arg3.IsWhole) (arg4 : Memref sig .tc .vmem S16x64x1024 .f32) (harg4 : arg4.IsWhole)
  (arg5 : Memref sig .tc .vmem S1056x128 .bf16) (harg5 : arg5.IsWhole) (arg6 : Memref sig .tc .vmem S1024x640 .bf16) (harg6 : arg6.IsWhole)
  (v8 : Vec F S64x1 .f32) (v10 : Vec F S64x640 .bf16) (X : BufTy.Contents (Elt F) arg1.view.ty)
  (g4 : BufTy.Contents (Elt F) arg4.view.ty) (G5 : BufTy.Contents (Elt F) arg5.view.ty) (g6 : BufTy.Contents (Elt F) arg6.view.ty)

/-- What the output block holds once all sixteen batch rows have been written: row `j` is the contraction of the weights
    with the window matrix of batch row `j`, plus the bias — whatever the two scratch buffers held before. -/
def outSpec : S16x64x1024.Idx → Elt F EltTy.f32 := fun y =>
  k0_pay3 v8 v10 (zrow (k0_pay4 (xrow arg1 X ⟨(y 0).val, trips_eq ▸ (y 0).isLt⟩)))
    (ix3 (0 : Fin 1) (⟨(y 1).val, (y 1).isLt⟩ : Fin 64) (⟨(y 2).val, (y 2).isLt⟩ : Fin 1024))

theorem trip_fst (k : Fin k0_t1_loop.trips) (f4 : BufTy.Contents (Elt F) arg4.view.ty) (f5 : BufTy.Contents (Elt F) arg5.view.ty) (f6 : BufTy.Contents (Elt F) arg6.view.ty) :
    (trip_k0_t1 (F := F) Variants.none c none i arg1 harg1 arg2 harg2 arg3 harg3 arg4 harg4 arg5 harg5 arg6 harg6 v8 v10 X k).1 f4 f5 f6
      = [⟨Rect.unit (s := S16x64x1024) (k0_off2 k) S1x64x1024.size (Gen.k0_off2_inb k), k0_pay3 v8 v10 (trip_k0_t1.sl.v40 arg1 arg5 arg6 X k f5)⟩] := by
  unfold trip_k0_t1; rfl

theorem trip_snd (k : Fin k0_t1_loop.trips) (f4 : BufTy.Contents (Elt F) arg4.view.ty) (f5 : BufTy.Contents (Elt F) arg5.view.ty) (f6 : BufTy.Contents (Elt F) arg6.view.ty) :
    (trip_k0_t1 (F := F) Variants.none c none i arg1 harg1 arg2 harg2 arg3 harg3 arg4 harg4 arg5 harg5 arg6 harg6 v8 v10 X k).2.1 f4 f5 f6
      = [⟨Rect.unit (s := S1056x128) ![16, 0] S1024x128.size Gen.inb_S1056x128_S1024x128_16_0, k0_pay4 (xrow arg1 X k)⟩] := by
  unfold trip_k0_t1; rfl

/-- After `n` trips: the first `n` rows of the output block are final, and the halo buffer's margins still hold the
    margin value (each trip overwrites rows 16 … 1039 only). By induction on `n`. -/
theorem pb_inv (hG5 : Halo arg5 G5) : ∀ n, n ≤ 16 →
    (∀ y : S16x64x1024.Idx, (y 0).val < n →
        arg4.view.read (Elt F) (arg4.view.writes (Elt F) g4
          (pb_k0_t1 (F := F) Variants.none c none i arg1 harg1 arg2 harg2 arg3 harg3 arg4 harg4 arg5 harg5 arg6 harg6 v8 v10 X g4 G5 g6 n).1) y
          = outSpec arg1 v8 v10 X y)
    ∧ Halo arg5 (arg5.view.writes (Elt F) G5
          (pb_k0_t1 (F := F) Variants.none c none i arg1 harg1 arg2 harg2 arg3 harg3 arg4 harg4 arg5 harg5 arg6 harg6 v8 v10 X g4 G5 g6 n).2.1) := by
  intro n
  induction n with
  | zero =>
    intro _
    refine ⟨fun y h => absurd h (Nat.not_lt_zero _), ?_⟩
    rw [pb_k0_t1.eq_1]; exact hG5
  | succ n ih =>
    intro hn
    obtain ⟨ih4, ih5⟩ := ih (by omega)
    have hk : n < k0_t1_loop.trips := by rw [trips_eq]; omega
    have e := pb_k0_t1_succ (F := F) Variants.none c none i arg1 harg1 arg2 harg2 arg3 harg3 arg4 harg4 arg5 harg5 arg6 harg6 v8 v10 X g4 G5 g6 ⟨n, hk⟩
    have e' : pb_k0_t1 (F := F) Variants.none c none i arg1 harg1 arg2 harg2 arg3 harg3 arg4 harg4 arg5 harg5 arg6 harg6 v8 v10 X g4 G5 g6 (n + 1) = _ := e
    constructor
    · intro y hy
      rw [e']; dsimp only
      rw [View.writes_append, trip_fst, v40_eq arg1 arg5 arg6 X ⟨n, hk⟩ _ ih5]
      by_cases hyn : (y 0).val = n
      · have hk' : (⟨(y 0).val, trips_eq ▸ (y 0).isLt⟩ : Fin k0_t1_loop.trips) = ⟨n, hk⟩ := Fin.ext hyn
        unfold outSpec
        rw [hk']
        exact View.read_writes_cons_unit_of_mem arg4.view _ (Gen.k0_off2_inb ⟨n, hk⟩) _ [] y
          (ix3 (0 : Fin 1) (⟨(y 1).val, (y 1).isLt⟩ : Fin 64) (⟨(y 2).val, (y 2).isLt⟩ : Fin 1024)) (off2_eq ⟨n, hk⟩)
          (fun a => match a with
            | ⟨0, _⟩ => by show (y 0).val = n + 0; omega
            | ⟨1, _⟩ => by show (y 1).val = 0 + (y 1).val; omega
            | ⟨2, _⟩ => by show (y 2).val = 0 + (y 2).val; omega)
      · exact (View.read_writes_cons_unit_of_not_mem arg4.view _ (Gen.k0_off2_inb ⟨n, hk⟩) _ [] y (off2_eq ⟨n, hk⟩) (0 : Fin 3)
          (Or.inl (by show (y 0).val < n; omega))).trans (ih4 y (by omega))
    · rw [e']; dsimp only
      rw [View.writes_append, trip_snd]
      intro r e hr
      exact (View.read_writes_cons_unit_of_not_mem arg5.view _ Gen.inb_S1056x128_S1024x128_16_0 _ [] (ix2 r e) rfl (0 : Fin 2)
        (by show r.val < 16 ∨ 16 + 1024 ≤ r.val; omega)).trans (ih5 r e hr)

/-- The output block after the loop, read whole. -/
theorem pb_out (hG5 : Halo arg5 G5) (n : ℕ) (hn : n = 16) :
    arg4.view.read (Elt F) (arg4.view.writes (Elt F) g4
      (pb_k0_t1 (F := F) Variants.none c none i arg1 harg1 arg2 harg2 arg3 harg3 arg4 harg4 arg5 harg5 arg6 harg6 v8 v10 X g4 G5 g6 n).1)
      = outSpec arg1 v8 v10 X := by
  subst hn
  funext y
  exact (pb_inv c i arg1 harg1 arg2 harg2 arg3 harg3 arg4 harg4 arg5 harg5 arg6 harg6 v8 v10 X g4 G5 g6 hG5 16 le_rfl).1 y (y 0).isLt

/-- After the two margin stores the halo buffer's margins hold the margin value, whatever it held before. -/
theorem halo_init (g5 : BufTy.Contents (Elt F) arg5.view.ty) :
    Halo arg5 (arg5.view.writes (Elt F) g5
      [⟨Rect.unit (s := S1056x128) ![1040, 0] S16x128.size Gen.inb_S1056x128_S16x128_1040_0, k0_pay2⟩,
        ⟨Rect.unit (s := S1056x128) ![0, 0] S16x128.size Gen.inb_S1056x128_S16x128_0_0, k0_pay1⟩]) := by
  intro r e hr
  rcases hr with hr | hr
  · refine (View.read_writes_cons_unit_of_not_mem arg5.view _ Gen.inb_S1056x128_S16x128_1040_0 _ _ (ix2 r e) rfl (0 : Fin 2)
      (Or.inl (by show r.val < 1040; omega))).trans ?_
    refine (View.read_writes_cons_unit_of_mem arg5.view _ Gen.inb_S1056x128_S16x128_0_0 _ [] (ix2 r e)
      (ix2 (⟨r.val, hr⟩ : Fin 16) e) rfl (fun a => match a with
        | ⟨0, _⟩ => by show r.val = 0 + r.val; omega
        | ⟨1, _⟩ => by show e.val = 0 + e.val; omega)).trans ?_
    exact pay1_apply _
  · have hr' : r.val < 1056 := r.isLt
    refine (View.read_writes_cons_unit_of_mem arg5.view _ Gen.inb_S1056x128_S16x128_1040_0 _ _ (ix2 r e)
      (ix2 (⟨r.val - 1040, by omega⟩ : Fin 16) e) rfl (fun a => match a with
        | ⟨0, _⟩ => by show r.val = 1040 + (r.val - 1040); omega
        | ⟨1, _⟩ => by show e.val = 0 + e.val; omega)).trans ?_
    exact pay2_apply _

end Loop

/-! ## The body on any staging memrefs -/

section Kernel

local notation "𝕄" => MT nD τ sig Unit (Elt F) ℕ (UR sig nD τ) ℕ

/-- What the body leaves in the output window's block, as a function of the three input blocks. -/
def outOf (arg1 : Memref sig .tc .vmem S16x1024x128 .f32) (harg1 : arg1.IsWhole) (arg2 : Memref sig .tc .vmem S64x640 .bf16) (harg2 : arg2.IsWhole)
    (arg3 : Memref sig .tc .vmem S64x1 .f32) (harg3 : arg3.IsWhole)
    (x0 : Vec F S16x1024x128 .f32) (x1 : Vec F S64x640 .bf16) (x2 : Vec F S64x1 .f32) : S16x64x1024.Idx → Elt F EltTy.f32 :=
  outSpec arg1
    (View.readAt (Elt F) arg3.view (Rect.unit (s := S64x1) ![0, 0] S64x1.size Gen.inb_S64x1_S64x1_0_0).toLoadRect (harg3.unread x2))
    (View.readAt (Elt F) arg2.view (Rect.unit (s := S64x640) ![0, 0] S64x640.size Gen.inb_S64x640_S64x640_0_0).toLoadRect (harg2.unread x1))
    (harg1.unread x0)

/-- The body runs: holding the three input blocks, the output buffer and the two scratch buffers at anything, it
    terminates with the inputs as they were, the output buffer at `outOf` of them and the scratch at something. -/
theorem sound_kernel (c : Dev nD) (i : grid0.Coords)
    (arg1 : Memref sig .tc .vmem S16x1024x128 .f32) (harg1 : arg1.IsWhole) (arg2 : Memref sig .tc .vmem S64x640 .bf16) (harg2 : arg2.IsWhole)
  (arg3 : Memref sig .tc .vmem S64x1 .f32) (harg3 : arg3.IsWhole) (arg4 : Memref sig .tc .vmem S16x64x1024 .f32) (harg4 : arg4.IsWhole)
  (arg5 : Memref sig .tc .vmem S1056x128 .bf16) (harg5 : arg5.IsWhole) (arg6 : Memref sig .tc .vmem S1024x640 .bf16) (harg6 : arg6.IsWhole)
    (x0 : Vec F S16x1024x128 .f32) (x1 : Vec F S64x640 .bf16) (x2 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outOf arg1 harg1 arg2 harg2 arg3 harg3 x0 x1 x2)
            ∗ (∃ d, owns (c : Thread nD τ) arg5 fullShare d) ∗ (∃ d, owns (c : Thread nD τ) arg6 fullShare d)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d4, %g4, -, H4⟩, ⟨%d5, %g5, -, H5⟩, ⟨%d6, %g6, -, H6⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    exact pb_out c i arg1 harg1 arg2 harg2 arg3 harg3 arg4 harg4 arg5 harg5 arg6 harg6 _ _ _ g4 _ g6 (halo_init arg5 g5) _ trips_eq
  isplitl [H5]
  · iexists _, _; isplitr
    swap; · iexact H5
    ipureintro; rfl
  iexists _, _; isplitr
  swap; · iexact H6
  ipureintro; rfl

end Kernel

/-! ## The proof data, the body obligation, the run -/

section Frame

local notation "𝕄" => MT nD τ sig Unit (Elt F) ℕ (UR sig nD τ) ℕ

variable (m : (ℓ : Loc nD τ sig) → Buf (Elt F) ℓ) (ρ : Dev nD → PrngReg)

/-- Each window's current staging memref at point `t`, and the two scratch buffers. -/
abbrev ms0 (t : Fin cfg0.N) : Memref sig .tc .vmem S16x1024x128 .f32 := win0_0.stage (cfg0.slots t 0)
abbrev hs0 (t : Fin cfg0.N) : (ms0 t).IsWhole := Gen.hstage0_0 ((cfg0.slots t 0).cast nbuf0_0)
abbrev ms1 (t : Fin cfg0.N) : Memref sig .tc .vmem S64x640 .bf16 := win0_1.stage (cfg0.slots t 1)
abbrev hs1 (t : Fin cfg0.N) : (ms1 t).IsWhole := Gen.hstage0_1 ((cfg0.slots t 1).cast nbuf0_1)
abbrev ms2 (t : Fin cfg0.N) : Memref sig .tc .vmem S64x1 .f32 := win0_2.stage (cfg0.slots t 2)
abbrev hs2 (t : Fin cfg0.N) : (ms2 t).IsWhole := Gen.hstage0_2 ((cfg0.slots t 2).cast nbuf0_2)
abbrev ms3 (t : Fin cfg0.N) : Memref sig .tc .vmem S16x64x1024 .f32 := win0_3.stage (cfg0.slots t 3)
abbrev hs3 (t : Fin cfg0.N) : (ms3 t).IsWhole := Gen.hstage0_3 ((cfg0.slots t 3).cast nbuf0_3)
abbrev sc5 : Memref sig .tc .vmem S1056x128 .bf16 := Memref.whole cc0_scratch0
abbrev sc6 : Memref sig .tc .vmem S1024x640 .bf16 := Memref.whole cc0_scratch1

/-- What the body leaves in the output window's buffer at grid point `t`: `outOf` of the three input blocks there. -/
def outAt (c : Dev nD) (t : Fin cfg0.N) : S16x64x1024.Idx → Elt F EltTy.f32 :=
  outOf (ms0 t) (hs0 t) (ms1 t) (hs1 t) (ms2 t) (hs2 t) (iblk m c 0 t) (iblk m c 1 t) (iblk m c 2 t)

/-- The proof data on core `c`: the arrays as the region finds them; after the body at point `t` each input's buffer at
    its block and the output's at `outAt`; the scratch buffers and the generator register at anything, between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points, with the scratch buffers as memrefs owned at some contents. -/
theorem PhiA_eq (c : Dev nD) :
    (Pipeline.ΦA spec0 c : sProp 𝕄)
      = iprop(iprop((∃ d, owns (c : Thread nD τ) sc5 fullShare d) ∗ (∃ d, owns (c : Thread nD τ) sc6 fullShare d)) ∗ (∃ r, prngReg c r)) := by
  unfold Pipeline.ΦA; rw [scopedRest0_eq]; simp only [sc5, sc6, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- The body at any point: the inputs' buffers hold their blocks, the scratch comes out of the invariant at some contents
    and goes back at some contents, the output buffer ends at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA_eq]
  unfold outAt
  iintro ⟨⟨⟨H5, H6⟩, Hg⟩, Ho, ⟨%d0, H0⟩, ⟨%d1, H1⟩, ⟨%d2, H2⟩, ⟨%d3, H3⟩⟩
  iapply (sound_kernel c (grid0.coords t) (ms0 t) (hs0 t) (ms1 t) (hs1 t) (ms2 t) (hs2 t) (ms3 t) (hs3 t) sc5 (Memref.isWhole_whole _) sc6 (Memref.isWhole_whole _)
    (iblk m c 0 t) (iblk m c 1 t) (iblk m c 2 t) Set.univ _)
  isplitl [H0]; · iexact H0
  isplitl [H1]; · iexact H1
  isplitl [H2]; · iexact H2
  isplitl [H3]; · iexists _; iexact H3
  isplitl [H5]; · iexact H5
  isplitl [H6]; · iexact H6
  iintro ⟨H0, H1, H2, H3, H5, H6⟩
  isplitl [H5 H6 Hg]
  · isplitl [H5 H6]
    · isplitl [H5]; · iexact H5
      iexact H6
    iexact Hg
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, each array of the pipeline ending at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Frame

end Cert.KernelIdeal.Body

end
-- ==== Proof.KIPayload.lean ====
/-
  The body's arithmetic over the extended reals.

  One trip of the body's row loop casts a batch row of the input to the narrow format (the identity on the extended
  reals), lays its five row-shifted copies side by side as a window matrix with zero margins, multiplies the filters'
  weights against that matrix into a zero accumulator and adds each filter's bias along its row. Read at an index,
  entry (f, t) of what the trip stores is (∑ k < 640, W[f, k] · Z[t, k]) + bias[f], with Z[t, c·128 + e] row t + c − 2,
  lane e, of the batch row when that row exists and zero otherwise.
-/
import proofs.«110926_j54116587929806_2_alg».proof.Proof.KIWindow
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- The margin value, the narrow format's zero word, is the real zero. -/
theorem zeroB_ideal : zeroB (F := Ideal) = (0 : EReal) := by
  show Ideal.ofBits .bf16 0x0000#16 = 0
  simp [Ideal.ofBits, Ideal.ieee]

/-- The row block a trip stores into the halo buffer is the batch row it loaded: dropping the unit axis keeps the
    coordinates, and the cast to the narrow format is the identity on the extended reals. -/
theorem pay4_apply (xr : Vec Ideal S1x1024x128 .f32) (r : Fin 1024) (e : Fin 128) :
    k0_pay4 (F := Ideal) xr (ix2 r e) = xr (ix3 (0 : Fin 1) r e) := by
  unfold k0_pay4
  rw [shapeCast_self, truncf_apply]
  exact shapeCast_1ab_ab_apply xr shapeCasts_S1x1024x128_S1024x128 r e

/-! ## The contraction's operand indices -/

/-- The left operand's row is the output's row. -/
theorem lhs_pay3_0 (i : S64x1024.Idx) (q : dot_S64x640_S1024x640_S64x1024_1_1_0_0_n_n.contr.Idx) :
    (dot_S64x640_S1024x640_S64x1024_1_1_0_0_n_n.lhsIdx i q 0).val = (i 0).val := by
  unfold DotDims.lhsIdx
  rw [dif_neg (show ¬(0 : Fin S64x640.rank) ∈ dot_S64x640_S1024x640_S64x1024_1_1_0_0_n_n.lhsBatch by decide), dif_pos (show (0 : Fin S64x640.rank) ∈ dot_S64x640_S1024x640_S64x1024_1_1_0_0_n_n.lhsNonContracting by decide)]
  rfl
/-- The left operand's column is the contraction position. -/
theorem lhs_pay3_1 (i : S64x1024.Idx) (q : dot_S64x640_S1024x640_S64x1024_1_1_0_0_n_n.contr.Idx) :
    (dot_S64x640_S1024x640_S64x1024_1_1_0_0_n_n.lhsIdx i q 1).val = (q ⟨0, by decide⟩).val :=
  dot_S64x640_S1024x640_S64x1024_1_1_0_0_n_n.lhsIdx_val_of_single rfl i q
/-- The right operand's row is the output's column. -/
theorem rhs_pay3_0 (i : S64x1024.Idx) (q : dot_S64x640_S1024x640_S64x1024_1_1_0_0_n_n.contr.Idx) :
    (dot_S64x640_S1024x640_S64x1024_1_1_0_0_n_n.rhsIdx i q 0).val = (i 1).val := by
  unfold DotDims.rhsIdx
  rw [dif_neg (show ¬(0 : Fin S1024x640.rank) ∈ dot_S64x640_S1024x640_S64x1024_1_1_0_0_n_n.rhsBatch by decide), dif_pos (show (0 : Fin S1024x640.rank) ∈ dot_S64x640_S1024x640_S64x1024_1_1_0_0_n_n.rhsNonContracting by decide)]
  rfl
/-- The right operand's column is the contraction position. -/
theorem rhs_pay3_1 (i : S64x1024.Idx) (q : dot_S64x640_S1024x640_S64x1024_1_1_0_0_n_n.contr.Idx) :
    (dot_S64x640_S1024x640_S64x1024_1_1_0_0_n_n.rhsIdx i q 1).val = (q ⟨0, by decide⟩).val :=
  dot_S64x640_S1024x640_S64x1024_1_1_0_0_n_n.rhsIdx_val_of_single rfl i q

/-- The product into a zero accumulator, read at (f, t), is the sum over the 640 contraction positions of the left
    operand's row `f` against the right operand's row `t`. -/
theorem matmul_pay3_apply (l : FVec Ideal S64x640 .bf16) (r : FVec Ideal S1024x640 .bf16) (f : Fin 64) (t : Fin 1024) :
    matmul dot_S64x640_S1024x640_S64x1024_1_1_0_0_n_n none l r (constant (F := Ideal) S64x1024 .f32 0x00000000#32) (ix2 f t)
      = ∑ k : Fin 640, l (ix2 f k) * r (ix2 t k) := by
  simp only [matmul]
  rw [Ideal.matmul_constant_zero_apply, ← Equiv.sum_comp (ValueIdx.contrEquiv1 dot_S64x640_S1024x640_S64x1024_1_1_0_0_n_n 640 rfl rfl).symm]
  refine Finset.sum_congr rfl fun k _ => ?_
  have hk := ValueIdx.contrEquiv1_symm_val dot_S64x640_S1024x640_S64x1024_1_1_0_0_n_n 640 rfl rfl k
  have el : dot_S64x640_S1024x640_S64x1024_1_1_0_0_n_n.lhsIdx (ix2 f t) ((ValueIdx.contrEquiv1 dot_S64x640_S1024x640_S64x1024_1_1_0_0_n_n 640 rfl rfl).symm k) = ix2 f k := funext fun a => Fin.ext (by
    match a with
    | ⟨0, _⟩ => exact lhs_pay3_0 _ _
    | ⟨1, _⟩ => exact (lhs_pay3_1 _ _).trans hk)
  have er : dot_S64x640_S1024x640_S64x1024_1_1_0_0_n_n.rhsIdx (ix2 f t) ((ValueIdx.contrEquiv1 dot_S64x640_S1024x640_S64x1024_1_1_0_0_n_n 640 rfl rfl).symm k) = ix2 t k := funext fun a => Fin.ext (by
    match a with
    | ⟨0, _⟩ => exact rhs_pay3_0 _ _
    | ⟨1, _⟩ => exact (rhs_pay3_1 _ _).trans hk)
  rw [el, er]

/-- A column broadcast along its rows reads, at (f, t), the column's entry of row `f`. -/
theorem bcast_col_apply (v : FVec Ideal S64x1 .f32) (f : Fin 64) (t : Fin 1024) :
    broadcastTo S64x1024 v broadcasts_S64x1_S64x1024 (ix2 f t) = v (ix2 f (0 : Fin 1)) :=
  broadcastTo_apply v broadcasts_S64x1_S64x1024 (ix2 f t) (ix2 f (0 : Fin 1)) (fun a => match a with
    | ⟨0, _⟩ => by show f.val = if (64 : Nat) = 1 then 0 else f.val; rw [if_neg (by decide)]
    | ⟨1, _⟩ => by show 0 = if (1 : Nat) = 1 then 0 else t.val; rw [if_pos rfl])

/-- What a trip stores, read at (f, t): filter `f`'s weights against row `t` of the window matrix, plus the filter's
    bias. -/
theorem pay3_apply (v8 : Vec Ideal S64x1 .f32) (v10 : Vec Ideal S64x640 .bf16) (z : Vec Ideal S1024x640 .bf16) (f : Fin 64)
    (t : Fin 1024) :
    k0_pay3 (F := Ideal) v8 v10 z (ix3 (0 : Fin 1) f t)
      = (∑ k : Fin 640, v10 (ix2 f k) * z (ix2 t k)) + v8 (ix2 f (0 : Fin 1)) := by
  unfold k0_pay3
  rw [shapeCast_self, shapeCast_self, shapeCast_ab_1ab_apply, addf_apply, matmul_pay3_apply, bcast_col_apply]

/-- What a trip stores from the batch row `xr` it loaded, read at (f, t): filter `f`'s weights against the context window
    at position `t` — row `t + c − 2` of the batch row for tap `c`, zero where that row does not exist — plus the
    filter's bias. -/
theorem conv_row (v8 : Vec Ideal S64x1 .f32) (v10 : Vec Ideal S64x640 .bf16) (xr : Vec Ideal S1x1024x128 .f32) (f : Fin 64)
    (t : Fin 1024) :
    k0_pay3 (F := Ideal) v8 v10 (zrow (k0_pay4 xr)) (ix3 (0 : Fin 1) f t)
      = (∑ k : Fin 640, v10 (ix2 f k) * (if h : 2 ≤ t.val + k.val / 128 ∧ t.val + k.val / 128 < 1026 then
            xr (ix3 (0 : Fin 1) (⟨t.val + k.val / 128 - 2, by omega⟩ : Fin 1024) (⟨k.val % 128, Nat.mod_lt _ (by decide)⟩ : Fin 128))
          else (0 : EReal))) + v8 (ix2 f (0 : Fin 1)) := by
  rw [pay3_apply]
  refine congrArg (· + v8 (ix2 f (0 : Fin 1))) (Finset.sum_congr rfl fun k _ => ?_)
  refine congrArg (v10 (ix2 f k) * ·) ?_
  show (if h : 2 ≤ t.val + k.val / 128 ∧ t.val + k.val / 128 < 1026 then
      k0_pay4 (F := Ideal) xr (ix2 (⟨t.val + k.val / 128 - 2, by omega⟩ : Fin 1024) (⟨k.val % 128, Nat.mod_lt _ (by decide)⟩ : Fin 128))
    else zeroB (F := Ideal)) = _
  by_cases h : 2 ≤ t.val + k.val / 128 ∧ t.val + k.val / 128 < 1026
  · rw [dif_pos h, dif_pos h, pay4_apply]
  · rw [dif_neg h, dif_neg h, zeroB_ideal]

end Cert.KernelIdeal.Body

end
-- ==== Proof.KIHost.lean ====
/-
  The two arrays the host prepares before the body runs, over the extended reals.

  Before the body runs the host casts the filters' weights to the narrow format, which is the identity on the extended
  reals, and views the 64 biases as a column of 64 rows: entry (f, k) of the prepared weights is the weight W[f, k] and
  entry (f, 0) of the prepared column is the bias of filter f.
-/
import proofs.«110926_j54116587929806_2_alg».proof.Proof.Gen.KernelIdeal.Frame
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ) (c : Dev nD)

/-- The prepared weights are the weights: the cast to the narrow format is the identity on the extended reals. -/
theorem V_w (f : Fin 64) (k : Fin 640) :
    (Gen.V (F := Ideal) m c main_v0 : S64x640.Idx → EReal) (ix2 f k)
      = (m ((c : Thread nD τ).loc main_arg1) : S64x640.Idx → EReal) (ix2 f k) := by
  have e : @Eq (S64x640.Idx → EReal) (Gen.V (F := Ideal) m c main_v0)
      (truncf (F := Ideal) (s := S64x640) .bf16 (m ((c : Thread nD τ).loc main_arg1) : FVec Ideal S64x640 .f32) bitsLt_bf16_f32) := by
    dsimp only [Gen.V, Gen.hostOps0]; after_results <;> rfl
  rw [e, truncf_apply]

/-- The prepared column holds filter `f`'s bias in row `f`: the view as a column keeps the row-major position. -/
theorem V_b (f : Fin 64) :
    (Gen.V (F := Ideal) m c main_v1 : S64x1.Idx → EReal) (ix2 f (0 : Fin 1))
      = (m ((c : Thread nD τ).loc main_arg2) : S64.Idx → EReal) (ix1 f) := by
  have e : @Eq (S64x1.Idx → EReal) (Gen.V (F := Ideal) m c main_v1)
      (shapeCast S64x1 (m ((c : Thread nD τ).loc main_arg2) : S64.Idx → EReal) shapeCasts_S64_S64x1) := by
    dsimp only [Gen.V, Gen.hostOps0]; after_results <;> rfl
  rw [e]
  exact shapeCast_apply _ shapeCasts_S64_S64x1 (ix2 f (0 : Fin 1)) (ix1 f) (by
    rw [Shape.rowMajor_val_one, Shape.rowMajor_val_two]
    show f.val = f.val * 1 + 0
    omega)

end Cert.KernelIdeal.Body

end
-- ==== Proof.Spec.lean ====
/-
  The function both programs compute, stated once over the extended reals.

  For a batch row b, a filter f and a position t the result is

      out[b, f, t] = (∑ k < 640, W[f, k] · Z[b, t, k]) + bias[f],

  where Z is the matrix of context windows: writing k = c·128 + e with c < 5 the tap and e < 128 the lane,
  Z[b, t, k] = x[b, t + c − 2, e] when the row t + c − 2 exists (0 ≤ t + c − 2 < 1024) and 0 in the two-row
  margins on either side of the sequence.
-/
import Idealize.ShloMosaic.PureOps.Ideal
import Idealize.ShloMosaic.Lib.ValueIdx

noncomputable section

open scoped BigOperators

namespace Cert.ConvSpec

open Idealize.ShloMosaic Idealize.ShloMosaic.ValueIdx

/-- Entry `k = c·128 + e` of the context window at position `t` of batch row `b`: the input at row `t + c − 2`,
    lane `e`, when that row exists, and zero in the margins. -/
def window (x : (⟨3, ![64, 1024, 128]⟩ : Shape).Idx → EReal) (b : Fin 64) (t : Fin 1024) (k : Fin 640) : EReal :=
  if h : 2 ≤ t.val + k.val / 128 ∧ t.val + k.val / 128 < 1026 then
    x (ix3 b ⟨t.val + k.val / 128 - 2, by omega⟩ ⟨k.val % 128, Nat.mod_lt _ (by decide)⟩)
  else 0

/-- The full-height convolution as one contraction of length 640 per output entry, plus the filter's bias. -/
def conv (x : (⟨3, ![64, 1024, 128]⟩ : Shape).Idx → EReal) (w : (⟨2, ![64, 640]⟩ : Shape).Idx → EReal)
    (bias : (⟨1, ![64]⟩ : Shape).Idx → EReal) : (⟨3, ![64, 64, 1024]⟩ : Shape).Idx → EReal :=
  fun i => (∑ k : Fin 640, w (ix2 (i 1) k) * window x (i 0) (i 2) k) + bias (ix1 (i 1))

end Cert.ConvSpec

end
-- ==== Proof.KIValue.lean ====
/-
  The value of the idealized kernel's result array.

  Grid point t handles batch rows 16·t … 16·t + 15: its input block is those rows of x, its output block the same rows of
  the result, and the weight and bias blocks are the whole (converted, reshaped) arrays at every point. Over the extended
  reals the conversion to the narrow format is the identity and the margin value is 0, so what point t writes back at
  (j, f, s) is (∑ k, W[f, k] · Z[16·t + j, s, k]) + b[f] with Z the window matrix of the specification: block t of the one
  function `Cert.ConvSpec.conv` of the three argument arrays (`flushed_eq`). The four blocks tile the result array
  (`cover`), so after the run the array is that function (`final`), and the run is restated with it (`run`).
-/
import proofs.«110926_j54116587929806_2_alg».proof.Proof.KIRun
import proofs.«110926_j54116587929806_2_alg».proof.Proof.KIPayload
import proofs.«110926_j54116587929806_2_alg».proof.Proof.KIHost
import proofs.«110926_j54116587929806_2_alg».proof.Proof.Spec
import Idealize.ShloMosaic.Lib.Pipeline.Value
import Idealize.ShloMosaic.Lib.WholeRead
import Idealize.ShloMosaic.Lib.ValueIdx

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the three argument arrays. -/
abbrev G (c : Dev nD) : S64x64x1024.Idx → EReal :=
  Cert.ConvSpec.conv (m ((c : Thread nD τ).loc main_arg0)) (m ((c : Thread nD τ).loc main_arg1)) (m ((c : Thread nD τ).loc main_arg2))

/-- The printed index maps, decided over the four grid points: the input and output windows move along the batch axis
    with the point, the weight and bias windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 4 := lt_of_lt_of_eq t.isLt N_0

/-- The input block at point `t`: batch rows 16·t … of x. -/
theorem iblk0_apply (c : Dev nD) (t : Fin cfg0.N) (j : Fin 16) (r : Fin 1024) (e : Fin 128) :
    (iblk m c 0 t : S16x1024x128.Idx → EReal) (ix3 j r e)
      = (m ((c : Thread nD τ).loc main_arg0) : S64x1024x128.Idx → EReal)
          (ix3 (⟨16 * t.val + j.val, by have := t_lt t; omega⟩ : Fin 64) r e) := by
  obtain ⟨e0, e1, e2, -⟩ := idx_facts t
  show V m c main_arg0 (((cfg0.win 0).blk t).view.emb (ix3 j r e)) = _
  rw [V_main_arg0]
  congr 1
  funext a
  match a with
  | ⟨0, _⟩ => exact Fin.ext (by show win0_0.index t (0 : Fin 3) * 16 + 1 * j.val = 16 * t.val + j.val; omega)
  | ⟨1, _⟩ => exact Fin.ext (by show win0_0.index t (1 : Fin 3) * 1024 + 1 * r.val = r.val; omega)
  | ⟨2, _⟩ => exact Fin.ext (by show win0_0.index t (2 : Fin 3) * 128 + 1 * e.val = e.val; omega)

/-- The weight block at every point: the weights. -/
theorem iblk1_apply (c : Dev nD) (t : Fin cfg0.N) (f : Fin 64) (k : Fin 640) :
    (iblk m c 1 t : S64x640.Idx → EReal) (ix2 f k) = (m ((c : Thread nD τ).loc main_arg1) : S64x640.Idx → EReal) (ix2 f k) := by
  obtain ⟨-, -, -, e0, e1, -⟩ := idx_facts t
  show V m c main_v0 (((cfg0.win 1).blk t).view.emb (ix2 f k)) = _
  rw [← V_w m c f k]
  congr 1
  funext a
  match a with
  | ⟨0, _⟩ => exact Fin.ext (by show win0_1.index t (0 : Fin 2) * 64 + 1 * f.val = f.val; omega)
  | ⟨1, _⟩ => exact Fin.ext (by show win0_1.index t (1 : Fin 2) * 640 + 1 * k.val = k.val; omega)

/-- The bias block at every point: the bias as a column. -/
theorem iblk2_apply (c : Dev nD) (t : Fin cfg0.N) (f : Fin 64) :
    (iblk m c 2 t : S64x1.Idx → EReal) (ix2 f (0 : Fin 1)) = (m ((c : Thread nD τ).loc main_arg2) : S64.Idx → EReal) (ix1 f) := by
  obtain ⟨-, -, -, -, -, e0, e1, -⟩ := idx_facts t
  show V m c main_v1 (((cfg0.win 2).blk t).view.emb (ix2 f (0 : Fin 1))) = _
  rw [← V_b m c f]
  congr 1
  funext a
  match a with
  | ⟨0, _⟩ => exact Fin.ext (by show win0_2.index t (0 : Fin 2) * 64 + 1 * f.val = f.val; omega)
  | ⟨1, _⟩ => exact Fin.ext (by show win0_2.index t (1 : Fin 2) * 1 + 1 * 0 = 0; omega)

/-- A load through a whole staging memref's zero-offset full-size rectangle reads the block itself. -/
theorem read_whole2 {d0 d1 : ℕ} {e : EltTy} (M : Memref sig .tc .vmem ⟨2, ![d0, d1]⟩ e) (hM : M.IsWhole)
    (inb : ∀ a, (![0, 0] : Fin 2 → Nat) a + (![d0, d1] : Fin 2 → Nat) a ≤ (![d0, d1] : Fin 2 → Nat) a)
    (Xb : (⟨2, ![d0, d1]⟩ : Shape).Idx → Elt Ideal e) (p : Fin d0) (q : Fin d1) :
    View.readAt (Elt Ideal) M.view (Rect.unit (s := ⟨2, ![d0, d1]⟩) ![0, 0] ![d0, d1] inb).toLoadRect (hM.unread Xb) (ix2 p q)
      = Xb (ix2 p q) := by
  rw [hM.readAt_unread]
  congr 1
  funext a
  match a with
  | ⟨0, _⟩ => exact Fin.ext (by show 0 + 1 * p.val = p.val; omega)
  | ⟨1, _⟩ => exact Fin.ext (by show 0 + 1 * q.val = q.val; omega)

/-- The specification at explicit coordinates. -/
theorem conv_apply (x : (⟨3, ![64, 1024, 128]⟩ : Shape).Idx → EReal) (w : (⟨2, ![64, 640]⟩ : Shape).Idx → EReal)
    (bias : (⟨1, ![64]⟩ : Shape).Idx → EReal) (b : Fin 64) (f : Fin 64) (s : Fin 1024) :
    Cert.ConvSpec.conv x w bias (ix3 b f s) = (∑ k : Fin 640, w (ix2 f k) * Cert.ConvSpec.window x b s k) + bias (ix1 f) := rfl

/-- The body's result at row `j`, filter `f`, position `s` of the output block, over the extended reals, in terms of the
    three input blocks: the contraction of the filter's weights with the window of row `j` at `s`, plus the bias. -/
theorem out_apply (arg1 : Memref sig .tc .vmem S16x1024x128 .f32) (harg1 : arg1.IsWhole) (arg2 : Memref sig .tc .vmem S64x640 .bf16) (harg2 : arg2.IsWhole)
    (arg3 : Memref sig .tc .vmem S64x1 .f32) (harg3 : arg3.IsWhole)
    (x0 : Vec Ideal S16x1024x128 .f32) (x1 : Vec Ideal S64x640 .bf16) (x2 : Vec Ideal S64x1 .f32) (j : Fin 16) (f : Fin 64) (s : Fin 1024) :
    outOf (F := Ideal) arg1 harg1 arg2 harg2 arg3 harg3 x0 x1 x2 (ix3 j f s)
      = (∑ k : Fin 640, x1 (ix2 f k) * (if h : 2 ≤ s.val + k.val / 128 ∧ s.val + k.val / 128 < 1026 then
            x0 (ix3 j (⟨s.val + k.val / 128 - 2, by omega⟩ : Fin 1024) (⟨k.val % 128, Nat.mod_lt _ (by decide)⟩ : Fin 128)) else (0 : EReal)))
        + x2 (ix2 f (0 : Fin 1)) := by
  unfold outOf outSpec
  refine (conv_row _ _ _ f s).trans ?_
  congr 1
  · refine Finset.sum_congr rfl fun k _ => ?_
    congr 1
    · exact read_whole2 arg2 harg2 _ x1 f k
    · by_cases h : 2 ≤ s.val + k.val / 128 ∧ s.val + k.val / 128 < 1026
      · rw [dif_pos h, dif_pos h]
        unfold xrow
        rw [View.readAt_unit_congr_cast _ (off1_eq _), harg1.readAt_unread]
        congr 1
        funext a
        match a with
        | ⟨0, _⟩ => exact Fin.ext (by show j.val + 1 * 0 = j.val; omega)
        | ⟨1, _⟩ => exact Fin.ext (by show 0 + 1 * (s.val + k.val / 128 - 2) = s.val + k.val / 128 - 2; omega)
        | ⟨2, _⟩ => exact Fin.ext (by show 0 + 1 * (k.val % 128) = k.val % 128; omega)
      · rw [dif_neg h, dif_neg h]
  · exact read_whole2 arg3 harg3 _ x2 f (0 : Fin 1)

/-- WHAT POINT `t` WRITES BACK is block `t` of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  obtain ⟨-, -, -, -, -, -, -, e0, e1, e2⟩ := idx_facts t
  have ht := t_lt t
  funext y
  obtain ⟨j, f, s, rfl⟩ : ∃ (j : Fin 16) (f : Fin 64) (s : Fin 1024), y = ix3 j f s :=
    ⟨y 0, y 1, y 2, eq_ix3 (n0 := 16) (n1 := 64) (n2 := 1024) y⟩
  show outAt m c t (ix3 j f s) = G m c (((cfg0.win 3).blk t).view.emb (ix3 j f s))
  have hemb : ((cfg0.win 3).blk t).view.emb (ix3 j f s)
      = ix3 (⟨16 * t.val + j.val, by omega⟩ : Fin 64) f s := by
    funext a
    match a with
    | ⟨0, _⟩ => exact Fin.ext (by show win0_3.index t (0 : Fin 3) * 16 + 1 * j.val = 16 * t.val + j.val; omega)
    | ⟨1, _⟩ => exact Fin.ext (by show win0_3.index t (1 : Fin 3) * 64 + 1 * f.val = f.val; omega)
    | ⟨2, _⟩ => exact Fin.ext (by show win0_3.index t (2 : Fin 3) * 1024 + 1 * s.val = s.val; omega)
  rw [hemb]
  unfold outAt
  refine ((out_apply (ms0 t) (hs0 t) (ms1 t) (hs1 t) (ms2 t) (hs2 t) (iblk m c 0 t) (iblk m c 1 t) (iblk m c 2 t) j f s).trans ?_).trans
    (conv_apply _ _ _ (⟨16 * t.val + j.val, by omega⟩ : Fin 64) f s).symm
  congr 1
  · refine Finset.sum_congr rfl fun k _ => ?_
    congr 1
    · exact iblk1_apply m c t f k
    · unfold Cert.ConvSpec.window
      by_cases h : 2 ≤ s.val + k.val / 128 ∧ s.val + k.val / 128 < 1026
      · rw [dif_pos h, dif_pos h]
        exact iblk0_apply m c t j _ _
      · rw [dif_neg h, dif_neg h]
  · exact iblk2_apply m c t f

/-- An index of the result array lies in point `t`'s block iff its batch row is one of the point's sixteen. -/
theorem mem_blk (t : Fin cfg0.N) (i : S64x64x1024.Idx) :
    i ∈ ((cfg0.win 3).blk t).view.set ↔ ∀ a : Fin 3, win0_3.index t a * S16x64x1024.size a ≤ (i a).val ∧ (i a).val < win0_3.index t a * S16x64x1024.size a + S16x64x1024.size a := by
  show i ∈ ((View.whole main_v2).slice (win0_3.rect t)).set ↔ _
  rw [View.set_slice_whole, Rect.mem_set_unit]
  exact Iff.rfl

/-- The four blocks tile the result array: batch row r belongs to point r / 16. -/
theorem cover (i : S64x64x1024.Idx) : ∃ t : Fin cfg0.N, (cfg0.win 3).flush t = true ∧ i ∈ ((cfg0.win 3).blk t).view.set := by
  have hi0 : (i 0).val < 64 := (i 0).isLt
  have hi1 : (i 1).val < 64 := (i 1).isLt
  have hi2 : (i 2).val < 1024 := (i 2).isLt
  refine ⟨⟨(i 0).val / 16, by rw [show cfg0.N = 4 from N_0]; omega⟩, flush0_3 _, ?_⟩
  rw [mem_blk]
  obtain ⟨-, -, -, -, -, -, -, e0, e1, e2⟩ := idx_facts ⟨(i 0).val / 16, by rw [show cfg0.N = 4 from N_0]; omega⟩
  intro a
  match a with
  | ⟨0, _⟩ =>
    show win0_3.index _ (0 : Fin 3) * 16 ≤ (i 0).val ∧ (i 0).val < win0_3.index _ (0 : Fin 3) * 16 + 16
    rw [e0]; show (i 0).val / 16 * 16 ≤ (i 0).val ∧ (i 0).val < (i 0).val / 16 * 16 + 16; omega
  | ⟨1, _⟩ =>
    show win0_3.index _ (1 : Fin 3) * 64 ≤ (i 1).val ∧ (i 1).val < win0_3.index _ (1 : Fin 3) * 64 + 64
    rw [e1]; omega
  | ⟨2, _⟩ =>
    show win0_3.index _ (2 : Fin 3) * 1024 ≤ (i 2).val ∧ (i 2).val < win0_3.index _ (2 : Fin 3) * 1024 + 1024
    rw [e2]; omega

/-- THE RESULT ARRAY after the run is `G` of the argument arrays. -/
theorem final (c : Dev nD) : (dats m 0 c).arrAt 3 cfg0.N = G m c :=
  (dats m 0 c).arrAt_eq_of_cover 3 (G m c) (fun t _ => flushed_eq m c t) (cover)

/-- The run of the idealized kernel: it terminates without a fault, the result array ends at `G` of the argument arrays
    and the argument arrays end unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Body

end
-- ==== Proof.RefValue.lean ====
/-
  The reference program read as the function it computes, over the extended reals.

  The reference pads the input by two zero rows on either side of the sequence axis, takes the five row-shifted
  views of the padded array, lays them side by side as the 640 entries of a context window, contracts each window
  against a filter's 640 weights and adds the filter's bias. Read one operation at a time, entry (b, f, t) of its
  result is (∑ k < 640, W[f, k] · Z[b, t, k]) + bias[f] with Z[b, t, c·128 + e] the input at row t + c − 2, lane e,
  when that row exists and zero otherwise: the function `Cert.ConvSpec.conv`.
-/
import proofs.«110926_j54116587929806_2_alg».proof.Proof.Gen.ReferenceIdeal.Read
import proofs.«110926_j54116587929806_2_alg».proof.Proof.Spec
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The padding value, the integer zero converted, is the real zero. -/
theorem padval_zero (i : S_.Idx) : val_main_call0_v0 (F := Ideal) i = (0 : EReal) := by
  show ((((0#32 : BitVec 32).toInt : ℤ) : ℝ) : EReal) = 0
  simp

/-- Row `r` of the padded array: the input's row `r − 2` when `2 ≤ r < 1026`, and zero in the two margins. -/
theorem pad_row (x0 : (⟨S64x1024x128, .f32⟩ : BufTy).Contents (Elt Ideal)) (b : Fin 64) (r : Nat) (hr : r < 1028)
    (e : Fin 128) :
    val_main_v0 (F := Ideal) x0 (ix3 b (⟨r, hr⟩ : Fin 1028) e)
      = if h : 2 ≤ r ∧ r < 1026 then x0 (ix3 b (⟨r - 2, by omega⟩ : Fin 1024) e) else (0 : EReal) := by
  unfold val_main_v0
  by_cases h : 2 ≤ r ∧ r < 1026
  · rw [dif_pos h]
    exact pad_apply_of_inside _ _ _ x0 _ pads_S64x1024x128_S64x1028x128_000_220_000 h_S_
      (ix3 b (⟨r, hr⟩ : Fin 1028) e) (ix3 b (⟨r - 2, by omega⟩ : Fin 1024) e) (fun a => match a with
        | ⟨0, _⟩ => by show b.val = 0 + b.val * (0 + 1); omega
        | ⟨1, _⟩ => by show r = 2 + (r - 2) * (0 + 1); omega
        | ⟨2, _⟩ => by show e.val = 0 + e.val * (0 + 1); omega)
  · rw [dif_neg h]
    refine (pad_apply_of_not_inside _ _ _ x0 _ pads_S64x1024x128_S64x1028x128_000_220_000 h_S_
      (ix3 b (⟨r, hr⟩ : Fin 1028) e) (1 : Fin 3) ?_).trans (padval_zero _)
    show ¬(2 ≤ r ∧ (r - 2) % (0 + 1) = 0 ∧ (r - 2) / (0 + 1) < 1024)
    intro hin
    exact h ⟨hin.1, by have := hin.2.2; omega⟩

/-- The joined array at tap 0 is the padded array itself: piece 0 of the five, read on its unit axis. -/
theorem cat_tap0 (x0 : (⟨S64x1024x128, .f32⟩ : BufTy).Contents (Elt Ideal)) (b : Fin 64) (t : Fin 1024) (e : Fin 128) :
    val_main_v11 (F := Ideal) x0 (ix4 b t (⟨0, by decide⟩ : Fin 5) e)
      = val_main_v0 (F := Ideal) x0 (ix3 b (⟨t.val + 0, by have := t.isLt; omega⟩ : Fin 1028) e) := by
  unfold val_main_v11
  refine (concatenate_apply_piece (2 : Fin S64x1024x5x128.rank)
    [⟨S64x1024x1x128, val_main_v6 (F := Ideal) x0⟩, ⟨S64x1024x1x128, val_main_v7 (F := Ideal) x0⟩,
      ⟨S64x1024x1x128, val_main_v8 (F := Ideal) x0⟩, ⟨S64x1024x1x128, val_main_v9 (F := Ideal) x0⟩,
      ⟨S64x1024x1x128, val_main_v10 (F := Ideal) x0⟩]
    concatenates_S64x1024x1x128_S64x1024x1x128_S64x1024x1x128_S64x1024x1x128_S64x1024x1x128_S64x1024x5x128_d2
    (ix4 b t (⟨0, by decide⟩ : Fin 5) e) 0 (by show 0 < 5; omega) S64x1024x1x128 (val_main_v6 (F := Ideal) x0) rfl rfl 0 rfl
    (ix4 b t (0 : Fin 1) e) (fun a => match a with
      | ⟨0, _⟩ => fun _ => rfl
      | ⟨1, _⟩ => fun _ => rfl
      | ⟨2, _⟩ => fun hb => absurd rfl hb
      | ⟨3, _⟩ => fun _ => rfl) rfl).trans ?_
  rw [val_main_v6_apply, val_main_v1_apply]
  refine congrArg (val_main_v0 (F := Ideal) x0) (funext fun a => ?_)
  match a with
  | ⟨0, _⟩ => rfl
  | ⟨1, _⟩ => exact Fin.ext (by show t.val = t.val + 0; omega)
  | ⟨2, _⟩ => rfl

/-- The joined array at tap 1 is the padded array shifted by 1 row: piece 1 of the five, read on its unit axis. -/
theorem cat_tap1 (x0 : (⟨S64x1024x128, .f32⟩ : BufTy).Contents (Elt Ideal)) (b : Fin 64) (t : Fin 1024) (e : Fin 128) :
    val_main_v11 (F := Ideal) x0 (ix4 b t (⟨1, by decide⟩ : Fin 5) e)
      = val_main_v0 (F := Ideal) x0 (ix3 b (⟨t.val + 1, by have := t.isLt; omega⟩ : Fin 1028) e) := by
  unfold val_main_v11
  refine (concatenate_apply_piece (2 : Fin S64x1024x5x128.rank)
    [⟨S64x1024x1x128, val_main_v6 (F := Ideal) x0⟩, ⟨S64x1024x1x128, val_main_v7 (F := Ideal) x0⟩,
      ⟨S64x1024x1x128, val_main_v8 (F := Ideal) x0⟩, ⟨S64x1024x1x128, val_main_v9 (F := Ideal) x0⟩,
      ⟨S64x1024x1x128, val_main_v10 (F := Ideal) x0⟩]
    concatenates_S64x1024x1x128_S64x1024x1x128_S64x1024x1x128_S64x1024x1x128_S64x1024x1x128_S64x1024x5x128_d2
    (ix4 b t (⟨1, by decide⟩ : Fin 5) e) 1 (by show 1 < 5; omega) S64x1024x1x128 (val_main_v7 (F := Ideal) x0) rfl rfl 1 rfl
    (ix4 b t (0 : Fin 1) e) (fun a => match a with
      | ⟨0, _⟩ => fun _ => rfl
      | ⟨1, _⟩ => fun _ => rfl
      | ⟨2, _⟩ => fun hb => absurd rfl hb
      | ⟨3, _⟩ => fun _ => rfl) rfl).trans ?_
  rw [val_main_v7_apply, val_main_v2_apply]
  refine congrArg (val_main_v0 (F := Ideal) x0) (funext fun a => ?_)
  match a with
  | ⟨0, _⟩ => rfl
  | ⟨1, _⟩ => exact Fin.ext (by show 1 + t.val = t.val + 1; omega)
  | ⟨2, _⟩ => rfl

/-- The joined array at tap 2 is the padded array shifted by 2 rows: piece 2 of the five, read on its unit axis. -/
theorem cat_tap2 (x0 : (⟨S64x1024x128, .f32⟩ : BufTy).Contents (Elt Ideal)) (b : Fin 64) (t : Fin 1024) (e : Fin 128) :
    val_main_v11 (F := Ideal) x0 (ix4 b t (⟨2, by decide⟩ : Fin 5) e)
      = val_main_v0 (F := Ideal) x0 (ix3 b (⟨t.val + 2, by have := t.isLt; omega⟩ : Fin 1028) e) := by
  unfold val_main_v11
  refine (concatenate_apply_piece (2 : Fin S64x1024x5x128.rank)
    [⟨S64x1024x1x128, val_main_v6 (F := Ideal) x0⟩, ⟨S64x1024x1x128, val_main_v7 (F := Ideal) x0⟩,
      ⟨S64x1024x1x128, val_main_v8 (F := Ideal) x0⟩, ⟨S64x1024x1x128, val_main_v9 (F := Ideal) x0⟩,
      ⟨S64x1024x1x128, val_main_v10 (F := Ideal) x0⟩]
    concatenates_S64x1024x1x128_S64x1024x1x128_S64x1024x1x128_S64x1024x1x128_S64x1024x1x128_S64x1024x5x128_d2
    (ix4 b t (⟨2, by decide⟩ : Fin 5) e) 2 (by show 2 < 5; omega) S64x1024x1x128 (val_main_v8 (F := Ideal) x0) rfl rfl 2 rfl
    (ix4 b t (0 : Fin 1) e) (fun a => match a with
      | ⟨0, _⟩ => fun _ => rfl
      | ⟨1, _⟩ => fun _ => rfl
      | ⟨2, _⟩ => fun hb => absurd rfl hb
      | ⟨3, _⟩ => fun _ => rfl) rfl).trans ?_
  rw [val_main_v8_apply, val_main_v3_apply]
  refine congrArg (val_main_v0 (F := Ideal) x0) (funext fun a => ?_)
  match a with
  | ⟨0, _⟩ => rfl
  | ⟨1, _⟩ => exact Fin.ext (by show 2 + t.val = t.val + 2; omega)
  | ⟨2, _⟩ => rfl

/-- The joined array at tap 3 is the padded array shifted by 3 rows: piece 3 of the five, read on its unit axis. -/
theorem cat_tap3 (x0 : (⟨S64x1024x128, .f32⟩ : BufTy).Contents (Elt Ideal)) (b : Fin 64) (t : Fin 1024) (e : Fin 128) :
    val_main_v11 (F := Ideal) x0 (ix4 b t (⟨3, by decide⟩ : Fin 5) e)
      = val_main_v0 (F := Ideal) x0 (ix3 b (⟨t.val + 3, by have := t.isLt; omega⟩ : Fin 1028) e) := by
  unfold val_main_v11
  refine (concatenate_apply_piece (2 : Fin S64x1024x5x128.rank)
    [⟨S64x1024x1x128, val_main_v6 (F := Ideal) x0⟩, ⟨S64x1024x1x128, val_main_v7 (F := Ideal) x0⟩,
      ⟨S64x1024x1x128, val_main_v8 (F := Ideal) x0⟩, ⟨S64x1024x1x128, val_main_v9 (F := Ideal) x0⟩,
      ⟨S64x1024x1x128, val_main_v10 (F := Ideal) x0⟩]
    concatenates_S64x1024x1x128_S64x1024x1x128_S64x1024x1x128_S64x1024x1x128_S64x1024x1x128_S64x1024x5x128_d2
    (ix4 b t (⟨3, by decide⟩ : Fin 5) e) 3 (by show 3 < 5; omega) S64x1024x1x128 (val_main_v9 (F := Ideal) x0) rfl rfl 3 rfl
    (ix4 b t (0 : Fin 1) e) (fun a => match a with
      | ⟨0, _⟩ => fun _ => rfl
      | ⟨1, _⟩ => fun _ => rfl
      | ⟨2, _⟩ => fun hb => absurd rfl hb
      | ⟨3, _⟩ => fun _ => rfl) rfl).trans ?_
  rw [val_main_v9_apply, val_main_v4_apply]
  refine congrArg (val_main_v0 (F := Ideal) x0) (funext fun a => ?_)
  match a with
  | ⟨0, _⟩ => rfl
  | ⟨1, _⟩ => exact Fin.ext (by show 3 + t.val = t.val + 3; omega)
  | ⟨2, _⟩ => rfl

/-- The joined array at tap 4 is the padded array shifted by 4 rows: piece 4 of the five, read on its unit axis. -/
theorem cat_tap4 (x0 : (⟨S64x1024x128, .f32⟩ : BufTy).Contents (Elt Ideal)) (b : Fin 64) (t : Fin 1024) (e : Fin 128) :
    val_main_v11 (F := Ideal) x0 (ix4 b t (⟨4, by decide⟩ : Fin 5) e)
      = val_main_v0 (F := Ideal) x0 (ix3 b (⟨t.val + 4, by have := t.isLt; omega⟩ : Fin 1028) e) := by
  unfold val_main_v11
  refine (concatenate_apply_piece (2 : Fin S64x1024x5x128.rank)
    [⟨S64x1024x1x128, val_main_v6 (F := Ideal) x0⟩, ⟨S64x1024x1x128, val_main_v7 (F := Ideal) x0⟩,
      ⟨S64x1024x1x128, val_main_v8 (F := Ideal) x0⟩, ⟨S64x1024x1x128, val_main_v9 (F := Ideal) x0⟩,
      ⟨S64x1024x1x128, val_main_v10 (F := Ideal) x0⟩]
    concatenates_S64x1024x1x128_S64x1024x1x128_S64x1024x1x128_S64x1024x1x128_S64x1024x1x128_S64x1024x5x128_d2
    (ix4 b t (⟨4, by decide⟩ : Fin 5) e) 4 (by show 4 < 5; omega) S64x1024x1x128 (val_main_v10 (F := Ideal) x0) rfl rfl 4 rfl
    (ix4 b t (0 : Fin 1) e) (fun a => match a with
      | ⟨0, _⟩ => fun _ => rfl
      | ⟨1, _⟩ => fun _ => rfl
      | ⟨2, _⟩ => fun hb => absurd rfl hb
      | ⟨3, _⟩ => fun _ => rfl) rfl).trans ?_
  rw [val_main_v10_apply, val_main_v5_apply]
  refine congrArg (val_main_v0 (F := Ideal) x0) (funext fun a => ?_)
  match a with
  | ⟨0, _⟩ => rfl
  | ⟨1, _⟩ => exact Fin.ext (by show 4 + t.val = t.val + 4; omega)
  | ⟨2, _⟩ => rfl

/-- The joined array at tap `c` is the padded array shifted by `c` rows. -/
theorem cat_tap (x0 : (⟨S64x1024x128, .f32⟩ : BufTy).Contents (Elt Ideal)) (b : Fin 64) (t : Fin 1024) (c : Nat) (hc : c < 5)
    (e : Fin 128) :
    val_main_v11 (F := Ideal) x0 (ix4 b t (⟨c, hc⟩ : Fin 5) e)
      = val_main_v0 (F := Ideal) x0 (ix3 b (⟨t.val + c, by have := t.isLt; omega⟩ : Fin 1028) e) := by
  match c, hc with
  | 0, _ => exact cat_tap0 x0 b t e
  | 1, _ => exact cat_tap1 x0 b t e
  | 2, _ => exact cat_tap2 x0 b t e
  | 3, _ => exact cat_tap3 x0 b t e
  | 4, _ => exact cat_tap4 x0 b t e
  | n + 5, h => exact absurd h (by omega)

/-- Entry `k = c·128 + e` of a window is tap `c = k / 128`, lane `e = k % 128` of the joined array: the reshape keeps
    the row-major position. -/
theorem idx12 (b : Fin 64) (t : Fin 1024) (k : Fin 640) :
    idx_main_v12 (ix3 b t k)
      = ix4 b t (⟨k.val / 128, by have := k.isLt; omega⟩ : Fin 5) (⟨k.val % 128, Nat.mod_lt _ (by decide)⟩ : Fin 128) := by
  have hb := b.isLt
  have ht := t.isLt
  have hk := k.isLt
  funext a
  match a with
  | ⟨0, _⟩ => exact Fin.ext (by show ((b.val * 1024 + t.val) * 640 + k.val) / 655360 = b.val; omega)
  | ⟨1, _⟩ => exact Fin.ext (by show ((b.val * 1024 + t.val) * 640 + k.val) / 640 % 1024 = t.val; omega)
  | ⟨2, _⟩ => exact Fin.ext (by show ((b.val * 1024 + t.val) * 640 + k.val) / 128 % 5 = k.val / 128; omega)
  | ⟨3, _⟩ => exact Fin.ext (by show ((b.val * 1024 + t.val) * 640 + k.val) % 128 = k.val % 128; omega)

/-- The reference's matrix of context windows is the specification's. -/
theorem window_eq (x0 : (⟨S64x1024x128, .f32⟩ : BufTy).Contents (Elt Ideal)) (b : Fin 64) (t : Fin 1024) (k : Fin 640) :
    val_main_v12 (F := Ideal) x0 (ix3 b t k) = Cert.ConvSpec.window x0 b t k := by
  rw [val_main_v12_apply, idx12, cat_tap, pad_row]
  rfl

/-- The reference's result is the convolution of the specification: entry (b, f, t) is the contraction of filter `f`'s
    weights against the window at (b, t), plus the filter's bias. -/
theorem ref_eq (x0 : (⟨S64x1024x128, .f32⟩ : BufTy).Contents (Elt Ideal)) (x1 : (⟨S64x640, .f32⟩ : BufTy).Contents (Elt Ideal))
    (x2 : (⟨S64, .f32⟩ : BufTy).Contents (Elt Ideal)) :
    val_main_v17 (F := Ideal) x0 x1 x2 = Cert.ConvSpec.conv x0 x1 x2 := by
  funext i
  obtain ⟨b, f, t, rfl⟩ : ∃ (b : Fin 64) (f : Fin 64) (t : Fin 1024), i = ix3 b f t :=
    ⟨i 0, i 1, i 2, eq_ix3 (n0 := 64) (n1 := 64) (n2 := 1024) i⟩
  rw [val_main_v17_apply, val_main_v14_apply, val_main_v13_apply, val_main_v16_apply, val_main_v15_apply]
  show _ = (∑ k : Fin 640, x1 (ix2 f k) * Cert.ConvSpec.window x0 b t k) + x2 (ix1 f)
  have eb : idx_main_v15 (idx_main_v16 (ix3 b f t)) = ix1 f := funext fun a => match a with
    | ⟨0, _⟩ => rfl
  rw [eb, Ideal.addf_def]
  refine congrArg (· + x2 (ix1 f)) (Finset.sum_congr rfl fun k _ => ?_)
  have el : lidx_main_v13 (idx_main_v14 (ix3 b f t)) k = ix2 f k := funext fun a => match a with
    | ⟨0, _⟩ => rfl
    | ⟨1, _⟩ => rfl
  have er : ridx_main_v13 (idx_main_v14 (ix3 b f t)) k = ix3 b t k := funext fun a => match a with
    | ⟨0, _⟩ => rfl
    | ⟨1, _⟩ => rfl
    | ⟨2, _⟩ => rfl
  rw [el, er, window_eq]

end Cert.ReferenceIdeal.RefValue

end
-- ==== Proof.lean ====
/-
  A full-height convolution over context windows, computed by a fused kernel and by a plain reference.

  For a batch row b, a filter f and a position t both programs compute

      out[b, f, t] = (∑ k < 640, W[f, k] · Z[b, t, k]) + bias[f],

  where, writing k = c·128 + e, Z[b, t, k] = x[b, t + c − 2, e] when the row t + c − 2 exists and 0 otherwise
  (`Cert.ConvSpec.conv`, Proof/Spec.lean). The reference builds Z by padding, slicing, stacking and reshaping and contracts
  it with W (Proof/RefValue.lean reads that one operation at a time). The kernel never builds Z in the large: each grid
  point takes sixteen batch rows, and for each row lays the five shifted copies side by side in a scratch buffer between
  two zeroed margins, multiplies once, and adds the bias (Proof/KIWindow.lean, Proof/KIRun.lean: the body and the run, for
  any float instance; Proof/KIPayload.lean, Proof/KIHost.lean, Proof/KIValue.lean: the values over the extended reals, where
  the conversion to the narrow format is the identity). The two results are the same function of the arguments, sum for
  sum and product for product, so no law of the extended reals beyond reading both sides is needed and the precondition is
  never opened. The word-level kernel's frame is the same body proof read at the word-level instance (Proof/KWindow.lean,
  Proof/KRun.lean). The idealization rewrote nothing, so that conjunct is trivial.
-/
import proofs.«110926_j54116587929806_2_alg».proof.Defs
import proofs.«110926_j54116587929806_2_alg».proof.Proof.Gen.Kernel
import proofs.«110926_j54116587929806_2_alg».proof.Proof.Gen.KernelIdeal
import proofs.«110926_j54116587929806_2_alg».proof.Proof.Gen.ReferenceIdeal
import proofs.«110926_j54116587929806_2_alg».proof.Proof.Gen.ReferenceIdeal.Run
import proofs.«110926_j54116587929806_2_alg».proof.Proof.Gen.ReferenceIdeal.Read
import proofs.«110926_j54116587929806_2_alg».proof.Proof.Gen.Pre_finite_inputs
import proofs.«110926_j54116587929806_2_alg».proof.Proof.KRun
import proofs.«110926_j54116587929806_2_alg».proof.Proof.KIRun
import proofs.«110926_j54116587929806_2_alg».proof.Proof.KIValue
import proofs.«110926_j54116587929806_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the result array at the one function `conv` of the (agreeing)
    argument arrays. -/
theorem algebraic : Cert.algebraic_KernelIdeal_ReferenceIdeal := by
  intro m ρ m' ρ' _ hagree
  refine ⟨fun c => Cert.KernelIdeal.Body.G m c, Cert.KernelIdeal.Body.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
